-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S2x3200000 : Shape := ⟨2, ![2, 3200000]⟩
abbrev S3200000 : Shape := ⟨1, ![3200000]⟩
abbrev S6x64x64 : Shape := ⟨3, ![6, 64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S6x64x64 : S_.BroadcastsInDim S6x64x64 (![] : Fin 0 → Fin S6x64x64.rank)
  reducesTo_S6x64x64_S_d0_1_2 : S6x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S200000x64 .f32) (main_arg1 : IVec S2x3200000 32) (main_arg2 : FVec F S3200000 .f32) (main_arg3 : FVec F S6x64x64 .f32) (main_arg4 : FVec F S64 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S6x64x64 .f32 := Host.absf main_arg3
  let main_cst_2 : FVec F S_ .f32 := constant S_ .f32 0x7F800000#32
  let main_v10 : FVec F S6x64x64 .f32 := broadcastInDim S6x64x64 ![] bcast_S_S6x64x64 main_cst_2
  let main_v11 : IVec S6x64x64 1 := cmpf .olt main_v9 main_v10
  let main_c_3 : IVec S_ 1 := constantI S_ 1 1#1
  let main_v12 : IVec S_ 1 := (fun x v => Host.reduce IntOp.andi x v reducesTo_S6x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S200000x64 : Shape := ⟨2, ![200000, 64]⟩
abbrev S2x3200000 : Shape := ⟨2, ![2, 3200000]⟩
abbrev S3200000 : Shape := ⟨1, ![3200000]⟩
abbrev S6x64x64 : Shape := ⟨3, ![6, 64, 64]⟩
abbrev S64 : Shape := ⟨1, ![64]⟩
abbrev S_ : Shape := ⟨0, ![]⟩
abbrev S200000 : Shape := ⟨1, ![200000]⟩
abbrev S1x3200000 : Shape := ⟨2, ![1, 3200000]⟩
abbrev S3400000 : Shape := ⟨1, ![3400000]⟩
abbrev S3400000x1 : Shape := ⟨2, ![3400000, 1]⟩
abbrev S3400000x64 : Shape := ⟨2, ![3400000, 64]⟩
abbrev S1x200000x64 : Shape := ⟨3, ![1, 200000, 64]⟩
abbrev S6x200000x64 : Shape := ⟨3, ![6, 200000, 64]⟩
abbrev S6x5000x64 : Shape := ⟨3, ![6, 5000, 64]⟩
abbrev S5000x64 : Shape := ⟨2, ![5000, 64]⟩
abbrev S1x5000x64 : Shape := ⟨3, ![1, 5000, 64]⟩
abbrev S1x64x64 : Shape := ⟨3, ![1, 64, 64]⟩
abbrev S64x64 : Shape := ⟨2, ![64, 64]⟩
abbrev S1x64 : Shape := ⟨2, ![1, 64]⟩

abbrev nBuf : Space → Nat
  | .hbm => 129
  | .vmem => 6
  | .smem => 0
  | _ => 0

abbrev hbmTy0_0 (i : Nat) : BufTy := match i % 128 with
  | 0 => ⟨S200000x64, .f32⟩
  | 1 => ⟨S2x3200000, .i32⟩
  | 2 => ⟨S3200000, .f32⟩
  | 3 => ⟨S6x64x64, .f32⟩
  | 4 => ⟨S64, .f32⟩
  | 5 => ⟨S_, .f32⟩
  | 6 => ⟨S3200000, .f32⟩
  | 7 => ⟨S3200000, .f32⟩
  | 8 => ⟨S_, .f32⟩
  | 9 => ⟨S3200000, .f32⟩
  | 10 => ⟨S3200000, .i1⟩
  | 11 => ⟨S_, .f32⟩
  | 12 => ⟨S_, .f32⟩
  | 13 => ⟨S3200000, .f32⟩
  | 14 => ⟨S3200000, .f32⟩
  | 15 => ⟨S200000, .i32⟩
  | 16 => ⟨S1x3200000, .i32⟩
  | 17 => ⟨S3200000, .i32⟩
  | 18 => ⟨S3400000, .i32⟩
  | 19 => ⟨S1x3200000, .i32⟩
  | 20 => ⟨S3200000, .i32⟩
  | 21 => ⟨S3400000, .i32⟩
  | 22 => ⟨S_, .f32⟩
  | 23 => ⟨S200000, .f32⟩
  | 24 => ⟨S3400000, .f32⟩
  | 25 => ⟨S3400000x1, .f32⟩
  | 26 => ⟨S_, .i32⟩
  | 27 => ⟨S3400000, .i32⟩
  | 28 => ⟨S3400000, .i1⟩
  | 29 => ⟨S_, .i32⟩
  | 30 => ⟨S3400000, .i32⟩
  | 31 => ⟨S3400000, .i32⟩
  | 32 => ⟨S3400000, .i32⟩
  | 33 => ⟨S3400000x1, .i32⟩
  | 34 => ⟨S3400000x64, .f32⟩
  | 35 => ⟨S3400000x64, .f32⟩
  | 36 => ⟨S3400000x64, .f32⟩
  | 37 => ⟨S_, .f32⟩
  | 38 => ⟨S200000x64, .f32⟩
  | 39 => ⟨S3400000x1, .i32⟩
  | 40 => ⟨S200000x64, .f32⟩
  | 41 => ⟨S3400000x1, .f32⟩
  | 42 => ⟨S_, .i32⟩
  | 43 => ⟨S3400000, .i32⟩
  | 44 => ⟨S3400000, .i1⟩
  | 45 => ⟨S_, .i32⟩
  | 46 => ⟨S3400000, .i32⟩
  | 47 => ⟨S3400000, .i32⟩
  | 48 => ⟨S3400000, .i32⟩
  | 49 => ⟨S3400000x1, .i32⟩
  | 50 => ⟨S3400000x64, .f32⟩
  | 51 => ⟨S3400000x64, .f32⟩
  | 52 => ⟨S3400000x64, .f32⟩
  | 53 => ⟨S_, .f32⟩
  | 54 => ⟨S200000x64, .f32⟩
  | 55 => ⟨S3400000x1, .i32⟩
  | 56 => ⟨S200000x64, .f32⟩
  | 57 => ⟨S_, .f32⟩
  | 58 => ⟨S200000x64, .f32⟩
  | 59 => ⟨S200000x64, .f32⟩
  | 60 => ⟨S200000x64, .f32⟩
  | 61 => ⟨S3400000x1, .f32⟩
  | 62 => ⟨S_, .i32⟩
  | 63 => ⟨S3400000, .i32⟩
  | 64 => ⟨S3400000, .i1⟩
  | 65 => ⟨S_, .i32⟩
  | 66 => ⟨S3400000, .i32⟩
  | 67 => ⟨S3400000, .i32⟩
  | 68 => ⟨S3400000, .i32⟩
  | 69 => ⟨S3400000x1, .i32⟩
  | 70 => ⟨S3400000x64, .f32⟩
  | 71 => ⟨S3400000x64, .f32⟩
  | 72 => ⟨S3400000x64, .f32⟩
  | 73 => ⟨S_, .f32⟩
  | 74 => ⟨S200000x64, .f32⟩
  | 75 => ⟨S3400000x1, .i32⟩
  | 76 => ⟨S200000x64, .f32⟩
  | 77 => ⟨S_, .f32⟩
  | 78 => ⟨S200000x64, .f32⟩
  | 79 => ⟨S200000x64, .f32⟩
  | 80 => ⟨S200000x64, .f32⟩
  | 81 => ⟨S3400000x1, .f32⟩
  | 82 => ⟨S_, .i32⟩
  | 83 => ⟨S3400000, .i32⟩
  | 84 => ⟨S3400000, .i1⟩
  | 85 => ⟨S_, .i32⟩
  | 86 => ⟨S3400000, .i32⟩
  | 87 => ⟨S3400000, .i32⟩
  | 88 => ⟨S3400000, .i32⟩
  | 89 => ⟨S3400000x1, .i32⟩
  | 90 => ⟨S3400000x64, .f32⟩
  | 91 => ⟨S3400000x64, .f32⟩
  | 92 => ⟨S3400000x64, .f32⟩
  | 93 => ⟨S_, .f32⟩
  | 94 => ⟨S200000x64, .f32⟩
  | 95 => ⟨S3400000x1, .i32⟩
  | 96 => ⟨S200000x64, .f32⟩
  | 97 => ⟨S_, .f32⟩
  | 98 => ⟨S200000x64, .f32⟩
  | 99 => ⟨S200000x64, .f32⟩
  | 100 => ⟨S200000x64, .f32⟩
  | 101 => ⟨S3400000x1, .f32⟩
  | 102 => ⟨S_, .i32⟩
  | 103 => ⟨S3400000, .i32⟩
  | 104 => ⟨S3400000, .i1⟩
  | 105 => ⟨S_, .i32⟩
  | 106 => ⟨S3400000, .i32⟩
  | 107 => ⟨S3400000, .i32⟩
  | 108 => ⟨S3400000, .i32⟩
  | 109 => ⟨S3400000x1, .i32⟩
  | 110 => ⟨S3400000x64, .f32⟩
  | 111 => ⟨S3400000x64, .f32⟩
  | 112 => ⟨S3400000x64, .f32⟩
  | 113 => ⟨S_, .f32⟩
  | 114 => ⟨S200000x64, .f32⟩
  | 115 => ⟨S3400000x1, .i32⟩
  | 116 => ⟨S200000x64, .f32⟩
  | 117 => ⟨S_, .f32⟩
  | 118 => ⟨S200000x64, .f32⟩
  | 119 => ⟨S200000x64, .f32⟩
  | 120 => ⟨S200000x64, .f32⟩
  | 121 => ⟨S1x200000x64, .f32⟩
  | 122 => ⟨S1x200000x64, .f32⟩
  | 123 => ⟨S1x200000x64, .f32⟩
  | 124 => ⟨S1x200000x64, .f32⟩
  | 125 => ⟨S1x200000x64, .f32⟩
  | 126 => ⟨S1x200000x64, .f32⟩
  | 127 => ⟨S6x200000x64, .f32⟩
  | _ => ⟨S200000x64, .f32⟩

abbrev hbmTy0_1 (i : Nat) : BufTy := match i % 128 with
  | 0 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S6x5000x64, .f32⟩
  | .local _ .vmem, ⟨1, _⟩ => ⟨S6x5000x64, .f32⟩
  | .local _ .vmem, ⟨2, _⟩ => ⟨S6x64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_13 : Ref sig .tc := ⟨.hbm, 82, rfl⟩
abbrev main_v60 : Ref sig .tc := ⟨.hbm, 83, rfl⟩
abbrev main_v61 : Ref sig .tc := ⟨.hbm, 84, rfl⟩
abbrev main_c_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_17 : Ref sig .tc := ⟨.hbm, 102, rfl⟩
abbrev main_v76 : Ref sig .tc := ⟨.hbm, 103, rfl⟩
abbrev main_v77 : Ref sig .tc := ⟨.hbm, 104, rfl⟩
abbrev main_c_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![40], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6x5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S200000 : S_.BroadcastsInDim S200000 (![] : Fin 0 → Fin S200000.rank)
  bcast_S3400000_S3400000x1_0 : S3400000.BroadcastsInDim S3400000x1 (![0] : Fin 1 → Fin S3400000x1.rank)
  bcast_S_S3400000 : S_.BroadcastsInDim S3400000 (![] : Fin 0 → Fin S3400000.rank)
  bcast_S3400000x1_S3400000x64_0_1 : S3400000x1.BroadcastsInDim S3400000x64 (![0, 1] : Fin 2 → Fin S3400000x64.rank)
  bcast_S_S200000x64 : S_.BroadcastsInDim S200000x64 (![] : Fin 0 → Fin S200000x64.rank)
  bcast_S200000x64_S1x200000x64_1_2 : S200000x64.BroadcastsInDim S1x200000x64 (![1, 2] : Fin 2 → Fin S1x200000x64.rank)
  concatenates_S1x200000x64_S1x200000x64_S1x200000x64_S1x200000x64_S1x200000x64_S1x200000x64_S6x200000x64_d0 : Shape.Concatenates [S1x200000x64, S1x200000x64, S1x200000x64, S1x200000x64, S1x200000x64, S1x200000x64] S6x200000x64 0
  inb_S6x5000x64_S1x5000x64_0_0_0 : ∀ a, (![0, 0, 0] : Fin 3 → Nat) a + S1x5000x64.size a ≤ S6x5000x64.size a
  h_S1x5000x64 : 0 < S1x5000x64.numel
  shapeCasts_S1x5000x64_S5000x64 : S1x5000x64.ShapeCasts S5000x64
  bitsLt_bf16_f32 : FTy.bits .bf16 < FTy.bits .f32
  inb_S6x64x64_S1x64x64_0_0_0 : ∀ a, (![0, 0, 0] : Fin 3 → Nat) a + S1x64x64.size a ≤ S6x64x64.size a
  h_S1x64x64 : 0 < S1x64x64.numel
  shapeCasts_S1x64x64_S64x64 : S1x64x64.ShapeCasts S64x64
  inb_S6x5000x64_S1x5000x64_1_0_0 : ∀ a, (![1, 0, 0] : Fin 3 → Nat) a + S1x5000x64.size a ≤ S6x5000x64.size a
  inb_S6x64x64_S1x64x64_1_0_0 : ∀ a, (![1, 0, 0] : Fin 3 → Nat) a + S1x64x64.size a ≤ S6x64x64.size a
  inb_S6x5000x64_S1x5000x64_2_0_0 : ∀ a, (![2, 0, 0] : Fin 3 → Nat) a + S1x5000x64.size a ≤ S6x5000x64.size a
  inb_S6x64x64_S1x64x64_2_0_0 : ∀ a, (![2, 0, 0] : Fin 3 → Nat) a + S1x64x64.size a ≤ S6x64x64.size a
  inb_S6x5000x64_S1x5000x64_3_0_0 : ∀ a, (![3, 0, 0] : Fin 3 → Nat) a + S1x5000x64.size a ≤ S6x5000x64.size a
  inb_S6x64x64_S1x64x64_3_0_0 : ∀ a, (![3, 0, 0] : Fin 3 → Nat) a + S1x64x64.size a ≤ S6x64x64.size a
  inb_S6x5000x64_S1x5000x64_4_0_0 : ∀ a, (![4, 0, 0] : Fin 3 → Nat) a + S1x5000x64.size a ≤ S6x5000x64.size a
  inb_S6x64x64_S1x64x64_4_0_0 : ∀ a, (![4, 0, 0] : Fin 3 → Nat) a + S1x64x64.size a ≤ S6x64x64.size a
  inb_S6x5000x64_S1x5000x64_5_0_0 : ∀ a, (![5, 0, 0] : Fin 3 → Nat) a + S1x5000x64.size a ≤ S6x5000x64.size a
  inb_S6x64x64_S1x64x64_5_0_0 : ∀ a, (![5, 0, 0] : Fin 3 → Nat) a + S1x64x64.size a ≤ S6x64x64.size a
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S200000x64_S3400000x1_S3400000x64_1_0_n_n_0_1_164_wf : GatherDims.WF S200000x64 S3400000x1 S3400000x64 [1] [0] [] [0] [] 1 ![1, 64]
  scatter_S200000x64_S3400000x1_S3400000x64_1_0_0_1_wf : ScatterDims.WF S200000x64 S3400000x1 S3400000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x5000x64.size a ≤ S6x200000x64.size a
  hwx0_0 : ∀ i : grid0.Coords, EltTy.bits .f32 = 32 ∨ (Rect.block (s := S6x200000x64) S6x5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64x64.size a ≤ S6x64x64.size a
  hwx0_1 : ∀ i : grid0.Coords, EltTy.bits .f32 = 32 ∨ (Rect.block (s := S6x64x64) S6x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S200000x64.size a
  hwx0_3 : ∀ i : grid0.Coords, EltTy.bits .f32 = 32 ∨ (Rect.block (s := S200000x64) S5000x64.size (cc0_transform_3 i) (hinb0_3 i)).WholeWords (EltTy.packing .f32)

variable [Facts₀]

def gather_S200000x64_S3400000x1_S3400000x64_1_0_n_n_0_1_164 : GatherDims S200000x64 S3400000x1 S3400000x64 where
  offsetDims := [1]
  collapsedSliceDims := [0]
  operandBatchingDims := []
  startIndicesBatchingDims := []
  startIndexMap := [0]
  indexVectorDim := 1
  sliceSizes := ![1, 64]
  wf := gather_S200000x64_S3400000x1_S3400000x64_1_0_n_n_0_1_164_wf
def scatter_S200000x64_S3400000x1_S3400000x64_1_0_0_1 : ScatterDims S200000x64 S3400000x1 S3400000x64 where
  updateWindowDims := [1]
  insertedWindowDims := [0]
  scatterDimsToOperandDims := [0]
  indexVectorDim := 1
  wf := scatter_S200000x64_S3400000x1_S3400000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v97) S6x5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S6x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v98) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x64 : Shape := ⟨2, ![200000, 64]⟩
abbrev S2x3200000 : Shape := ⟨2, ![2, 3200000]⟩
abbrev S3200000 : Shape := ⟨1, ![3200000]⟩
abbrev S6x64x64 : Shape := ⟨3, ![6, 64, 64]⟩
abbrev S64 : Shape := ⟨1, ![64]⟩
abbrev S_ : Shape := ⟨0, ![]⟩
abbrev S200000 : Shape := ⟨1, ![200000]⟩
abbrev S1x3200000 : Shape := ⟨2, ![1, 3200000]⟩
abbrev S3400000 : Shape := ⟨1, ![3400000]⟩
abbrev S1x64x64 : Shape := ⟨3, ![1, 64, 64]⟩
abbrev S64x64 : Shape := ⟨2, ![64, 64]⟩
abbrev S3400000x1 : Shape := ⟨2, ![3400000, 1]⟩
abbrev S3400000x64 : Shape := ⟨2, ![3400000, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S200000x64, .f32⟩
  | 1 => ⟨S2x3200000, .i32⟩
  | 2 => ⟨S3200000, .f32⟩
  | 3 => ⟨S6x64x64, .f32⟩
  | 4 => ⟨S64, .f32⟩
  | 5 => ⟨S_, .f32⟩
  | 6 => ⟨S3200000, .f32⟩
  | 7 => ⟨S3200000, .f32⟩
  | 8 => ⟨S_, .f32⟩
  | 9 => ⟨S_, .f32⟩
  | 10 => ⟨S3200000, .f32⟩
  | 11 => ⟨S3200000, .f32⟩
  | 12 => ⟨S_, .f32⟩
  | 13 => ⟨S3200000, .f32⟩
  | 14 => ⟨S3200000, .i1⟩
  | 15 => ⟨S_, .f32⟩
  | 16 => ⟨S_, .f32⟩
  | 17 => ⟨S3200000, .f32⟩
  | 18 => ⟨S3200000, .f32⟩
  | 19 => ⟨S200000, .i32⟩
  | 20 => ⟨S1x3200000, .i32⟩
  | 21 => ⟨S3200000, .i32⟩
  | 22 => ⟨S3400000, .i32⟩
  | 23 => ⟨S1x3200000, .i32⟩
  | 24 => ⟨S3200000, .i32⟩
  | 25 => ⟨S3400000, .i32⟩
  | 26 => ⟨S_, .f32⟩
  | 27 => ⟨S200000, .f32⟩
  | 28 => ⟨S3400000, .f32⟩
  | 29 => ⟨S1x64x64, .f32⟩
  | 30 => ⟨S64x64, .f32⟩
  | 31 => ⟨S200000x64, .f32⟩
  | 32 => ⟨S3400000x1, .f32⟩
  | 33 => ⟨S_, .i32⟩
  | 34 => ⟨S3400000, .i32⟩
  | 35 => ⟨S3400000, .i1⟩
  | 36 => ⟨S_, .i32⟩
  | 37 => ⟨S3400000, .i32⟩
  | 38 => ⟨S3400000, .i32⟩
  | 39 => ⟨S3400000, .i32⟩
  | 40 => ⟨S3400000x1, .i32⟩
  | 41 => ⟨S3400000x64, .f32⟩
  | 42 => ⟨S3400000x64, .f32⟩
  | 43 => ⟨S3400000x64, .f32⟩
  | 44 => ⟨S_, .f32⟩
  | 45 => ⟨S200000x64, .f32⟩
  | 46 => ⟨S3400000x1, .i32⟩
  | 47 => ⟨S200000x64, .f32⟩
  | 48 => ⟨S1x64x64, .f32⟩
  | 49 => ⟨S64x64, .f32⟩
  | 50 => ⟨S200000x64, .f32⟩
  | 51 => ⟨S200000x64, .f32⟩
  | 52 => ⟨S3400000x1, .f32⟩
  | 53 => ⟨S_, .i32⟩
  | 54 => ⟨S3400000, .i32⟩
  | 55 => ⟨S3400000, .i1⟩
  | 56 => ⟨S_, .i32⟩
  | 57 => ⟨S3400000, .i32⟩
  | 58 => ⟨S3400000, .i32⟩
  | 59 => ⟨S3400000, .i32⟩
  | 60 => ⟨S3400000x1, .i32⟩
  | 61 => ⟨S3400000x64, .f32⟩
  | 62 => ⟨S3400000x64, .f32⟩
  | 63 => ⟨S3400000x64, .f32⟩
  | 64 => ⟨S_, .f32⟩
  | 65 => ⟨S200000x64, .f32⟩
  | 66 => ⟨S3400000x1, .i32⟩
  | 67 => ⟨S200000x64, .f32⟩
  | 68 => ⟨S_, .f32⟩
  | 69 => ⟨S200000x64, .f32⟩
  | 70 => ⟨S200000x64, .f32⟩
  | 71 => ⟨S200000x64, .f32⟩
  | 72 => ⟨S1x64x64, .f32⟩
  | 73 => ⟨S64x64, .f32⟩
  | 74 => ⟨S200000x64, .f32⟩
  | 75 => ⟨S200000x64, .f32⟩
  | 76 => ⟨S3400000x1, .f32⟩
  | 77 => ⟨S_, .i32⟩
  | 78 => ⟨S3400000, .i32⟩
  | 79 => ⟨S3400000, .i1⟩
  | 80 => ⟨S_, .i32⟩
  | 81 => ⟨S3400000, .i32⟩
  | 82 => ⟨S3400000, .i32⟩
  | 83 => ⟨S3400000, .i32⟩
  | 84 => ⟨S3400000x1, .i32⟩
  | 85 => ⟨S3400000x64, .f32⟩
  | 86 => ⟨S3400000x64, .f32⟩
  | 87 => ⟨S3400000x64, .f32⟩
  | 88 => ⟨S_, .f32⟩
  | 89 => ⟨S200000x64, .f32⟩
  | 90 => ⟨S3400000x1, .i32⟩
  | 91 => ⟨S200000x64, .f32⟩
  | 92 => ⟨S_, .f32⟩
  | 93 => ⟨S200000x64, .f32⟩
  | 94 => ⟨S200000x64, .f32⟩
  | 95 => ⟨S200000x64, .f32⟩
  | 96 => ⟨S1x64x64, .f32⟩
  | 97 => ⟨S64x64, .f32⟩
  | 98 => ⟨S200000x64, .f32⟩
  | 99 => ⟨S200000x64, .f32⟩
  | 100 => ⟨S3400000x1, .f32⟩
  | 101 => ⟨S_, .i32⟩
  | 102 => ⟨S3400000, .i32⟩
  | 103 => ⟨S3400000, .i1⟩
  | 104 => ⟨S_, .i32⟩
  | 105 => ⟨S3400000, .i32⟩
  | 106 => ⟨S3400000, .i32⟩
  | 107 => ⟨S3400000, .i32⟩
  | 108 => ⟨S3400000x1, .i32⟩
  | 109 => ⟨S3400000x64, .f32⟩
  | 110 => ⟨S3400000x64, .f32⟩
  | 111 => ⟨S3400000x64, .f32⟩
  | 112 => ⟨S_, .f32⟩
  | 113 => ⟨S200000x64, .f32⟩
  | 114 => ⟨S3400000x1, .i32⟩
  | 115 => ⟨S200000x64, .f32⟩
  | 116 => ⟨S_, .f32⟩
  | 117 => ⟨S200000x64, .f32⟩
  | 118 => ⟨S200000x64, .f32⟩
  | 119 => ⟨S200000x64, .f32⟩
  | 120 => ⟨S1x64x64, .f32⟩
  | 121 => ⟨S64x64, .f32⟩
  | 122 => ⟨S200000x64, .f32⟩
  | 123 => ⟨S200000x64, .f32⟩
  | 124 => ⟨S3400000x1, .f32⟩
  | 125 => ⟨S_, .i32⟩
  | 126 => ⟨S3400000, .i32⟩
  | 127 => ⟨S3400000, .i1⟩
  | _ => ⟨S200000x64, .f32⟩

abbrev hbmTy0_1 (i : Nat) : BufTy := match i % 128 with
  | 0 => ⟨S_, .i32⟩
  | 1 => ⟨S3400000, .i32⟩
  | 2 => ⟨S3400000, .i32⟩
  | 3 => ⟨S3400000, .i32⟩
  | 4 => ⟨S3400000x1, .i32⟩
  | 5 => ⟨S3400000x64, .f32⟩
  | 6 => ⟨S3400000x64, .f32⟩
  | 7 => ⟨S3400000x64, .f32⟩
  | 8 => ⟨S_, .f32⟩
  | 9 => ⟨S200000x64, .f32⟩
  | 10 => ⟨S3400000x1, .i32⟩
  | 11 => ⟨S200000x64, .f32⟩
  | 12 => ⟨S_, .f32⟩
  | 13 => ⟨S200000x64, .f32⟩
  | 14 => ⟨S200000x64, .f32⟩
  | 15 => ⟨S200000x64, .f32⟩
  | 16 => ⟨S1x64x64, .f32⟩
  | 17 => ⟨S64x64, .f32⟩
  | 18 => ⟨S200000x64, .f32⟩
  | 19 => ⟨S200000x64, .f32⟩
  | 20 => ⟨S1x64, .f32⟩
  | 21 => ⟨S200000x64, .f32⟩
  | 22 => ⟨S200000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_10 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_14 : Ref sig .tc := ⟨.hbm, 101, rfl⟩
abbrev main_v78 : Ref sig .tc := ⟨.hbm, 102, rfl⟩
abbrev main_v79 : Ref sig .tc := ⟨.hbm, 103, rfl⟩
abbrev main_c_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_16 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_17 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_c_18 : Ref sig .tc := ⟨.hbm, 125, rfl⟩
abbrev main_v98 : Ref sig .tc := ⟨.hbm, 126, rfl⟩
abbrev main_v99 : Ref sig .tc := ⟨.hbm, 127, rfl⟩
abbrev main_c_19 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_20 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_21 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  concatenates_S3200000_S200000_S3400000_d0 : Shape.Concatenates [S3200000, S200000] S3400000 0
  slices_S2x3200000_S1x3200000_1_0 : S2x3200000.Slices ![1, 0] S1x3200000
  bcast_S_S200000 : S_.BroadcastsInDim S200000 (![] : Fin 0 → Fin S200000.rank)
  slices_S6x64x64_S1x64x64_0_0_0 : S6x64x64.Slices ![0, 0, 0] S1x64x64
  shapeCasts_S1x64x64_S64x64 : S1x64x64.ShapeCasts S64x64
  bcast_S3400000_S3400000x1_0 : S3400000.BroadcastsInDim S3400000x1 (![0] : Fin 1 → Fin S3400000x1.rank)
  bcast_S_S3400000 : S_.BroadcastsInDim S3400000 (![] : Fin 0 → Fin S3400000.rank)
  bcast_S3400000x1_S3400000x64_0_1 : S3400000x1.BroadcastsInDim S3400000x64 (![0, 1] : Fin 2 → Fin S3400000x64.rank)
  bcast_S_S200000x64 : S_.BroadcastsInDim S200000x64 (![] : Fin 0 → Fin S200000x64.rank)
  slices_S6x64x64_S1x64x64_1_0_0 : S6x64x64.Slices ![1, 0, 0] S1x64x64
  slices_S6x64x64_S1x64x64_2_0_0 : S6x64x64.Slices ![2, 0, 0] S1x64x64
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  dot_S200000x64_S64x64_S200000x64_1_0_0_1_n_n_wf : DotDims.WF S200000x64 S64x64 S200000x64 [1] [0] [0] [1] [] []
  gather_S200000x64_S3400000x1_S3400000x64_1_0_n_n_0_1_164_wf : GatherDims.WF S200000x64 S3400000x1 S3400000x64 [1] [0] [] [0] [] 1 ![1, 64]
  scatter_S200000x64_S3400000x1_S3400000x64_1_0_0_1_wf : ScatterDims.WF S200000x64 S3400000x1 S3400000x64 [1] [0] [0] 1

variable [Facts₀]

def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S3400000x1_S3400000x64_1_0_n_n_0_1_164 : GatherDims S200000x64 S3400000x1 S3400000x64 where
  offsetDims := [1]
  collapsedSliceDims := [0]
  operandBatchingDims := []
  startIndicesBatchingDims := []
  startIndexMap := [0]
  indexVectorDim := 1
  sliceSizes := ![1, 64]
  wf := gather_S200000x64_S3400000x1_S3400000x64_1_0_n_n_0_1_164_wf
def scatter_S200000x64_S3400000x1_S3400000x64_1_0_0_1 : ScatterDims S200000x64 S3400000x1 S3400000x64 where
  updateWindowDims := [1]
  insertedWindowDims := [0]
  scatterDimsToOperandDims := [0]
  indexVectorDim := 1
  wf := scatter_S200000x64_S3400000x1_S3400000x64_1_0_0_1_wf

class Facts : Prop extends Facts₀ where

variable [Facts]
-- ==== Proof.WordBlock.lean ====
/-
  What one grid point leaves in its output block, as a function of the point's three input blocks: the six
  feature slabs [5000, 64] of the stacked Chebyshev features, the six weight matrices [64, 64] and the bias row.
  The body reads slab j of the feature block and matrix j of the weight block for j = 0 … 5, adds the six
  products to a zero accumulator in that order, adds the bias row to every row, and stores the sum over the whole
  output block.
-/
import proofs.«146444_j24584392802821_2_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- Slab j of the feature block: the rows of order j. -/
abbrev rT0 : Rect S6x5000x64 := Rect.unit (s := S6x5000x64) ![0, 0, 0] S1x5000x64.size inb_S6x5000x64_S1x5000x64_0_0_0
abbrev rT1 : Rect S6x5000x64 := Rect.unit (s := S6x5000x64) ![1, 0, 0] S1x5000x64.size inb_S6x5000x64_S1x5000x64_1_0_0
abbrev rT2 : Rect S6x5000x64 := Rect.unit (s := S6x5000x64) ![2, 0, 0] S1x5000x64.size inb_S6x5000x64_S1x5000x64_2_0_0
abbrev rT3 : Rect S6x5000x64 := Rect.unit (s := S6x5000x64) ![3, 0, 0] S1x5000x64.size inb_S6x5000x64_S1x5000x64_3_0_0
abbrev rT4 : Rect S6x5000x64 := Rect.unit (s := S6x5000x64) ![4, 0, 0] S1x5000x64.size inb_S6x5000x64_S1x5000x64_4_0_0
abbrev rT5 : Rect S6x5000x64 := Rect.unit (s := S6x5000x64) ![5, 0, 0] S1x5000x64.size inb_S6x5000x64_S1x5000x64_5_0_0
/-- Matrix j of the weight block. -/
abbrev rW0 : Rect S6x64x64 := Rect.unit (s := S6x64x64) ![0, 0, 0] S1x64x64.size inb_S6x64x64_S1x64x64_0_0_0
abbrev rW1 : Rect S6x64x64 := Rect.unit (s := S6x64x64) ![1, 0, 0] S1x64x64.size inb_S6x64x64_S1x64x64_1_0_0
abbrev rW2 : Rect S6x64x64 := Rect.unit (s := S6x64x64) ![2, 0, 0] S1x64x64.size inb_S6x64x64_S1x64x64_2_0_0
abbrev rW3 : Rect S6x64x64 := Rect.unit (s := S6x64x64) ![3, 0, 0] S1x64x64.size inb_S6x64x64_S1x64x64_3_0_0
abbrev rW4 : Rect S6x64x64 := Rect.unit (s := S6x64x64) ![4, 0, 0] S1x64x64.size inb_S6x64x64_S1x64x64_4_0_0
abbrev rW5 : Rect S6x64x64 := Rect.unit (s := S6x64x64) ![5, 0, 0] S1x64x64.size inb_S6x64x64_S1x64x64_5_0_0
/-- The whole bias row, and the whole output block. -/
abbrev rB : Rect S64 := Rect.unit (s := S64) ![0] S64.size inb_S64_S64_0
abbrev rO : Rect S5000x64 := Rect.unit (s := S5000x64) ![0, 0] S5000x64.size inb_S5000x64_S5000x64_0_0

/-- The value the body stores over the output block, from the feature block `x0`, the weight block `x1` and the
    bias row `x2`. -/
def blockOut (x0 : Vec F S6x5000x64 .f32) (x1 : Vec F S6x64x64 .f32) (x2 : Vec F S64 .f32) : Vec F S5000x64 .f32 :=
  k0_pay1
    (k0_pay2 (View.ld x0 rT0) (View.ld x1 rW0) (View.ld x0 rT1) (View.ld x1 rW1) (View.ld x0 rT2) (View.ld x1 rW2))
    (k0_pay3 (View.ld x0 rT3)) (k0_pay4 (View.ld x1 rW3))
    (View.ld x0 rT4) (View.ld x1 rW4) (View.ld x0 rT5) (View.ld x1 rW5) (View.ld x2 rB)

end Cert.Kernel.Hand

end
-- ==== Proof.WordFrame.lean ====
/-
  The frame of the kernel program: @main is 123 host lines (the edge-weight scaling, the five graph propagations
  by gather and scatter-add, and the stack of the six Chebyshev feature arrays) followed by ONE kernel region on a
  grid of 40 points. Point t fetches rows 5000·t … 5000·t+4999 of every slab of the feature stack, the whole weight
  array and the whole bias row (the last two once, at the first point), runs the body, and writes the [5000, 64]
  output block back to rows 5000·t … of the result.
  The body loads through literal rectangles, computes, and stores once over its whole output block, so after the
  body the output's staging buffer holds `blockOut` of the three input blocks whatever it held before, and the
  input buffers are as they were. With that as the proof data the library's frame run gives: every weakly fair
  execution terminates without a fault, each window's array ends at what the proof data says, and every other
  buffer ends as the region found it; the argument arrays are among the last or are input windows, so they end as
  launched. Stated at any float instance `F`.
-/
import proofs.«146444_j24584392802821_2_alg».proof.Proof.Gen.Kernel.Launch
import proofs.«146444_j24584392802821_2_alg».proof.Proof.Gen.Kernel.Skeleton
import proofs.«146444_j24584392802821_2_alg».proof.Proof.Gen.Kernel.Points
import proofs.«146444_j24584392802821_2_alg».proof.Proof.WordBlock
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the three stretches of host lines. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is the three stretches of host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an input window's
    block stays in place, and where it is not fetched its index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: an input window's
    block stays in place, and where it is not fetched its index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: an input window's
    block stays in place, and where it is not fetched its index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a frame run to the frame claim: the feature array, the index array and the edge weights are staged by no
    window, the weight array and the bias row are input windows. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

/-! ## What the body leaves in the output block -/

/-- The output window's staging buffer after the body: its one store, over the whole block. -/
def out3 (x0 : Vec F S6x5000x64 .f32) (x1 : Vec F S6x64x64 .f32) (x2 : Vec F S64 .f32) : Vec F S5000x64 .f32 :=
  View.canon [⟨rO, blockOut x0 x1 x2⟩]

/-- The one store covers the block. -/
theorem cover3 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

/-! ## The body's triple -/

set_option maxHeartbeats 4000000 in
/-- The body on whole staging memrefs: the inputs' at contents `x0`, `x1`, `x2`, the output's at anything (the body
    loads it once and never uses the value), runs to the continuation holding the inputs' as they were and the
    output's at `out3` of them. -/
theorem sound_kernel (c : Dev nD) (E : Set ℕ) (i : grid0.Coords) (arg1 : Memref sig .tc .vmem S6x5000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S5000x64 .f32) (harg4 : arg4.IsWhole)
    (x0 : Vec F S6x5000x64 .f32) (x1 : Vec F S6x64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__cheb_reduce_kernel i arg1 harg1 arg2 harg2 arg3 harg3 arg4 harg4) K := by
  simp only [cc0__cheb_reduce_kernel_eq_skeleton]; unfold cc0__cheb_reduce_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- On core `c`: the arrays as the region finds them; after the body at point `t` each input's buffer at its block
    and the output's at `out3` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each window's array at what the proof
    data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.IdealBlock.lean ====
/-
  What one grid point leaves in its output block, as a function of the point's three input blocks: the six
  feature slabs [5000, 64] of the stacked Chebyshev features, the six weight matrices [64, 64] and the bias row.
  The body reads slab j of the feature block and matrix j of the weight block for j = 0 … 5, adds the six
  products to a zero accumulator in that order, adds the bias row to every row, and stores the sum over the whole
  output block.
-/
import proofs.«146444_j24584392802821_2_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- Slab j of the feature block: the rows of order j. -/
abbrev rT0 : Rect S6x5000x64 := Rect.unit (s := S6x5000x64) ![0, 0, 0] S1x5000x64.size inb_S6x5000x64_S1x5000x64_0_0_0
abbrev rT1 : Rect S6x5000x64 := Rect.unit (s := S6x5000x64) ![1, 0, 0] S1x5000x64.size inb_S6x5000x64_S1x5000x64_1_0_0
abbrev rT2 : Rect S6x5000x64 := Rect.unit (s := S6x5000x64) ![2, 0, 0] S1x5000x64.size inb_S6x5000x64_S1x5000x64_2_0_0
abbrev rT3 : Rect S6x5000x64 := Rect.unit (s := S6x5000x64) ![3, 0, 0] S1x5000x64.size inb_S6x5000x64_S1x5000x64_3_0_0
abbrev rT4 : Rect S6x5000x64 := Rect.unit (s := S6x5000x64) ![4, 0, 0] S1x5000x64.size inb_S6x5000x64_S1x5000x64_4_0_0
abbrev rT5 : Rect S6x5000x64 := Rect.unit (s := S6x5000x64) ![5, 0, 0] S1x5000x64.size inb_S6x5000x64_S1x5000x64_5_0_0
/-- Matrix j of the weight block. -/
abbrev rW0 : Rect S6x64x64 := Rect.unit (s := S6x64x64) ![0, 0, 0] S1x64x64.size inb_S6x64x64_S1x64x64_0_0_0
abbrev rW1 : Rect S6x64x64 := Rect.unit (s := S6x64x64) ![1, 0, 0] S1x64x64.size inb_S6x64x64_S1x64x64_1_0_0
abbrev rW2 : Rect S6x64x64 := Rect.unit (s := S6x64x64) ![2, 0, 0] S1x64x64.size inb_S6x64x64_S1x64x64_2_0_0
abbrev rW3 : Rect S6x64x64 := Rect.unit (s := S6x64x64) ![3, 0, 0] S1x64x64.size inb_S6x64x64_S1x64x64_3_0_0
abbrev rW4 : Rect S6x64x64 := Rect.unit (s := S6x64x64) ![4, 0, 0] S1x64x64.size inb_S6x64x64_S1x64x64_4_0_0
abbrev rW5 : Rect S6x64x64 := Rect.unit (s := S6x64x64) ![5, 0, 0] S1x64x64.size inb_S6x64x64_S1x64x64_5_0_0
/-- The whole bias row, and the whole output block. -/
abbrev rB : Rect S64 := Rect.unit (s := S64) ![0] S64.size inb_S64_S64_0
abbrev rO : Rect S5000x64 := Rect.unit (s := S5000x64) ![0, 0] S5000x64.size inb_S5000x64_S5000x64_0_0

/-- The value the body stores over the output block, from the feature block `x0`, the weight block `x1` and the
    bias row `x2`. -/
def blockOut (x0 : Vec F S6x5000x64 .f32) (x1 : Vec F S6x64x64 .f32) (x2 : Vec F S64 .f32) : Vec F S5000x64 .f32 :=
  k0_pay1
    (k0_pay2 (View.ld x0 rT0) (View.ld x1 rW0) (View.ld x0 rT1) (View.ld x1 rW1) (View.ld x0 rT2) (View.ld x1 rW2))
    (k0_pay3 (View.ld x0 rT3)) (k0_pay4 (View.ld x1 rW3))
    (View.ld x0 rT4) (View.ld x1 rW4) (View.ld x0 rT5) (View.ld x1 rW5) (View.ld x2 rB)

end Cert.KernelIdeal.Hand

end
-- ==== Proof.IdealFrame.lean ====
/-
  The frame of the kernel program: @main is 123 host lines (the edge-weight scaling, the five graph propagations
  by gather and scatter-add, and the stack of the six Chebyshev feature arrays) followed by ONE kernel region on a
  grid of 40 points. Point t fetches rows 5000·t … 5000·t+4999 of every slab of the feature stack, the whole weight
  array and the whole bias row (the last two once, at the first point), runs the body, and writes the [5000, 64]
  output block back to rows 5000·t … of the result.
  The body loads through literal rectangles, computes, and stores once over its whole output block, so after the
  body the output's staging buffer holds `blockOut` of the three input blocks whatever it held before, and the
  input buffers are as they were. With that as the proof data the library's frame run gives: every weakly fair
  execution terminates without a fault, each window's array ends at what the proof data says, and every other
  buffer ends as the region found it; the argument arrays are among the last or are input windows, so they end as
  launched. Stated at any float instance `F`.
-/
import proofs.«146444_j24584392802821_2_alg».proof.Proof.Gen.KernelIdeal.Launch
import proofs.«146444_j24584392802821_2_alg».proof.Proof.Gen.KernelIdeal.Skeleton
import proofs.«146444_j24584392802821_2_alg».proof.Proof.Gen.KernelIdeal.Points
import proofs.«146444_j24584392802821_2_alg».proof.Proof.IdealBlock
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the three stretches of host lines. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main is the three stretches of host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: an input window's
    block stays in place, and where it is not fetched its index has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: an input window's
    block stays in place, and where it is not fetched its index has not moved. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: an input window's
    block stays in place, and where it is not fetched its index has not moved. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- From a frame run to the frame claim: the feature array, the index array and the edge weights are staged by no
    window, the weight array and the bias row are input windows. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).1 2).trans (((dats 0 c).arrAt_in 2 rfl _).trans ((hA c 2).trans (V_main_arg4 m c)))⟩) h

/-! ## What the body leaves in the output block -/

/-- The output window's staging buffer after the body: its one store, over the whole block. -/
def out3 (x0 : Vec F S6x5000x64 .f32) (x1 : Vec F S6x64x64 .f32) (x2 : Vec F S64 .f32) : Vec F S5000x64 .f32 :=
  View.canon [⟨rO, blockOut x0 x1 x2⟩]

/-- The one store covers the block. -/
theorem cover3 (p0 : Vec F S5000x64 .f32) (y : S5000x64.Idx) :
    ∃ pc ∈ ([⟨rO, p0⟩] : List (View.Piece (Elt F) S5000x64 .f32)), y ∈ pc.1.set :=
  View.cover_of_tiled [⟨rO, p0⟩] S5000x64.size (by rfl) y

/-! ## The body's triple -/

set_option maxHeartbeats 4000000 in
/-- The body on whole staging memrefs: the inputs' at contents `x0`, `x1`, `x2`, the output's at anything (the body
    loads it once and never uses the value), runs to the continuation holding the inputs' as they were and the
    output's at `out3` of them. -/
theorem sound_kernel (c : Dev nD) (E : Set ℕ) (i : grid0.Coords) (arg1 : Memref sig .tc .vmem S6x5000x64 .f32) (harg1 : arg1.IsWhole) (arg2 : Memref sig .tc .vmem S6x64x64 .f32) (harg2 : arg2.IsWhole) (arg3 : Memref sig .tc .vmem S64 .f32) (harg3 : arg3.IsWhole) (arg4 : Memref sig .tc .vmem S5000x64 .f32) (harg4 : arg4.IsWhole)
    (x0 : Vec F S6x5000x64 .f32) (x1 : Vec F S6x64x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3 x0 x1 x2)) -∗ K ⟨⟩))
      ⊢ wp frame (wpE (defs₀ (F := F)) Variants.none c none) E (cc0__cheb_reduce_kernel i arg1 harg1 arg2 harg2 arg3 harg3 arg4 harg4) K := by
  simp only [cc0__cheb_reduce_kernel_eq_skeleton]; unfold cc0__cheb_reduce_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The proof data -/

/-- On core `c`: the arrays as the region finds them; after the body at point `t` each input's buffer at its block
    and the output's at `out3` of the input blocks; the invariant the scoped rest and the generator register, untouched;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 (iblk m c 0 t) (iblk m c 1 t) (iblk m c 2 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the triple applies; the invariant and what the core
    owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each window's array at what the proof
    data computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.IdealLayer.lean ====
/-
  What the kernel region computes from the feature stack S [6, 200000, 64], the weights W [6, 64, 64] and the bias b
  [64]: at node n and output channel q the sum over the six orders j, in order, of Σk S[j, n, k]·W[j, k, q], plus b[q],
  on the extended reals.
-/
import proofs.«146444_j24584392802821_2_alg».proof.KernelIdeal
import Idealize.ShloMosaic.Lib.ValueIdx
import Idealize.ShloMosaic.PureOps.Ideal

noncomputable section

open scoped BigOperators

namespace Cert.KernelIdeal.Hand

open Idealize.ShloMosaic Idealize.ShloMosaic.ValueIdx Cert.KernelIdeal

/-- Order j's term of the layer at node n and output channel q: row n of slab j of the stack times column q of weight
    matrix j. -/
def layerTerm (S : Vec Ideal S6x200000x64 .f32) (W : Vec Ideal S6x64x64 .f32) (j : Fin 6) (n : Fin 200000) (q : Fin 64) : EReal :=
  ∑ k : Fin 64, S (ix3 j n k) * W (ix3 j k q)

/-- The layer: the six orders' terms added in order, plus the bias. -/
def layer (S : Vec Ideal S6x200000x64 .f32) (W : Vec Ideal S6x64x64 .f32) (b : Vec Ideal S64 .f32) : Vec Ideal S200000x64 .f32 :=
  fun i => (((((layerTerm S W 0 (i 0) (i 1) + layerTerm S W 1 (i 0) (i 1)) + layerTerm S W 2 (i 0) (i 1)) + layerTerm S W 3 (i 0) (i 1))
    + layerTerm S W 4 (i 0) (i 1)) + layerTerm S W 5 (i 0) (i 1)) + b (ix1 (i 1))

end Cert.KernelIdeal.Hand

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.IdealBlockAt.lean ====
/-
  The value a grid point stores over its output block, read at row p and output channel q: the six slab-by-matrix
  products at (p, q), added in the order of the slabs, plus the bias at q. Each product is the textbook sum over
  the 64 input channels; the roundings to the narrow format are the identity at the extended reals, the casts
  that drop or add a unit axis only rename indices, and the zero accumulator the sum starts from vanishes.
-/
import proofs.«146444_j24584392802821_2_alg».proof.Proof.IdealBlock
import proofs.«146444_j24584392802821_2_alg».proof.Proof.LibMatmul
import Idealize.ShloMosaic.Lib.ValueLayout
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- Order j's contribution at row p and output channel q of a block: the product of feature slab j with weight matrix j. -/
def blockTerm (x0 : Vec Ideal S6x5000x64 .f32) (x1 : Vec Ideal S6x64x64 .f32) (j : Fin 6) (p : Fin 5000) (q : Fin 64) : EReal :=
  ∑ k : Fin 64, x0 (ix3 j p k) * x1 (ix3 j k q)

/-- The product's dimension numbers are those of a plain 5000×64 by 64×64 product. -/
theorem dot_eq_plain : dot_S5000x64_S64x64_S5000x64_1_0_0_1_n_n = DotDims.plain 5000 64 64 := rfl

/-- Slab m of a stack of matrices, loaded as a one-member stack and read at (0, i, k), is the stack at (m, i, k). -/
theorem ld_slab {n a b : Nat} (x : Vec Ideal ⟨3, ![n, a, b]⟩ .f32) (m : Nat) (hm : m < n)
    (inb : ∀ c, (![m, 0, 0] : Fin 3 → Nat) c + (⟨3, ![1, a, b]⟩ : Shape).size c ≤ (⟨3, ![n, a, b]⟩ : Shape).size c)
    (i : Fin a) (k : Fin b) :
    View.ld x (Rect.unit (s := ⟨3, ![n, a, b]⟩) ![m, 0, 0] (⟨3, ![1, a, b]⟩ : Shape).size inb) (ix3 (0 : Fin 1) i k)
      = x (ix3 ⟨m, hm⟩ i k) := by
  show x _ = x _
  refine congrArg x (funext fun c => Fin.ext ?_)
  match c with
  | ⟨0, _⟩ => show m + 1 * 0 = m; omega
  | ⟨1, _⟩ => show 0 + 1 * i.val = i.val; omega
  | ⟨2, _⟩ => show 0 + 1 * k.val = k.val; omega

/-- One slab's product into the zero accumulator, at (p, q): the sum over the input channels of the slab at (0, p, k)
    times the matrix at (0, k, q). -/
theorem slab_product_apply (A : Vec Ideal S1x5000x64 .f32) (B : Vec Ideal S1x64x64 .f32) (p : Fin 5000) (q : Fin 64) :
    matmul (F := Ideal) dot_S5000x64_S64x64_S5000x64_1_0_0_1_n_n none
        (truncf .bf16 (shapeCast S5000x64 A shapeCasts_S1x5000x64_S5000x64) bitsLt_bf16_f32)
        (truncf .bf16 (shapeCast S64x64 B shapeCasts_S1x64x64_S64x64) bitsLt_bf16_f32)
        (constant S5000x64 .f32 0x00000000#32) (ix2 p q)
      = ∑ k : Fin 64, A (ix3 (0 : Fin 1) p k) * B (ix3 (0 : Fin 1) k q) := by
  rw [dot_eq_plain]
  refine (Cert.Bridge.LibMatmul.matmul_zero_apply none _ _ p q).trans ?_
  refine Finset.sum_congr rfl fun k _ => ?_
  show shapeCast S5000x64 A shapeCasts_S1x5000x64_S5000x64 (ix2 p k)
      * shapeCast S64x64 B shapeCasts_S1x64x64_S64x64 (ix2 k q) = _
  rw [shapeCast_1ab_ab_apply, shapeCast_1ab_ab_apply]

/-- The bias row broadcast over the rows of the block, at (p, q), is the bias at q. -/
theorem bias_apply (x2 : Vec Ideal S64 .f32) (p : Fin 5000) (q : Fin 64) :
    broadcastTo S5000x64 (shapeCast S1x64 (View.ld x2 rB) shapeCasts_S64_S1x64) broadcasts_S1x64_S5000x64 (ix2 p q)
      = x2 (ix1 q) := by
  rw [broadcastTo_1b_ab_apply, shapeCast_a_1a_apply]
  show x2 _ = x2 _
  refine congrArg x2 (funext fun c => Fin.ext ?_)
  match c with
  | ⟨0, _⟩ => show 0 + 1 * q.val = q.val; omega

/-- Loaded slab m times loaded matrix m, summed over the input channels at (p, q): order m's term. -/
theorem blockTerm_of_ld (x0 : Vec Ideal S6x5000x64 .f32) (x1 : Vec Ideal S6x64x64 .f32) (m : Nat) (hm : m < 6)
    (inbT : ∀ c, (![m, 0, 0] : Fin 3 → Nat) c + S1x5000x64.size c ≤ S6x5000x64.size c)
    (inbW : ∀ c, (![m, 0, 0] : Fin 3 → Nat) c + S1x64x64.size c ≤ S6x64x64.size c) (p : Fin 5000) (q : Fin 64) :
    ∑ k : Fin 64, View.ld x0 (Rect.unit (s := S6x5000x64) ![m, 0, 0] S1x5000x64.size inbT) (ix3 (0 : Fin 1) p k)
        * View.ld x1 (Rect.unit (s := S6x64x64) ![m, 0, 0] S1x64x64.size inbW) (ix3 (0 : Fin 1) k q)
      = blockTerm x0 x1 ⟨m, hm⟩ p q :=
  Finset.sum_congr rfl fun k _ => by rw [ld_slab x0 m hm inbT p k, ld_slab x1 m hm inbW k q]

/-- The product of loaded slab m with loaded matrix m, into the zero accumulator, at (p, q): order m's term. -/
theorem slab_apply (x0 : Vec Ideal S6x5000x64 .f32) (x1 : Vec Ideal S6x64x64 .f32) (m : Nat) (hm : m < 6)
    (inbT : ∀ c, (![m, 0, 0] : Fin 3 → Nat) c + S1x5000x64.size c ≤ S6x5000x64.size c)
    (inbW : ∀ c, (![m, 0, 0] : Fin 3 → Nat) c + S1x64x64.size c ≤ S6x64x64.size c) (p : Fin 5000) (q : Fin 64) :
    matmul (F := Ideal) dot_S5000x64_S64x64_S5000x64_1_0_0_1_n_n none
        (truncf .bf16 (shapeCast S5000x64 (View.ld x0 (Rect.unit (s := S6x5000x64) ![m, 0, 0] S1x5000x64.size inbT))
          shapeCasts_S1x5000x64_S5000x64) bitsLt_bf16_f32)
        (truncf .bf16 (shapeCast S64x64 (View.ld x1 (Rect.unit (s := S6x64x64) ![m, 0, 0] S1x64x64.size inbW))
          shapeCasts_S1x64x64_S64x64) bitsLt_bf16_f32)
        (constant S5000x64 .f32 0x00000000#32) (ix2 p q)
      = blockTerm x0 x1 ⟨m, hm⟩ p q :=
  (slab_product_apply _ _ p q).trans (blockTerm_of_ld x0 x1 m hm inbT inbW p q)

/-- The accumulator the sum starts from, a splat of the word of zero, is the extended real zero everywhere. -/
theorem zero_splat_apply (j : S5000x64.Idx) :
    broadcast S5000x64 (Scalar.ofBits (F := Ideal) .f32 0x00000000#32) j = 0 := Ideal.ofBits_zero_f32

/-- A sum of two arrays of extended reals, read at an index. -/
theorem addf_at {s : Shape} {φ : FTy} (x y : FVec Ideal s φ) (i : s.Idx) : addf x y i = x i + y i := rfl

theorem blockOut_apply (x0 : Vec Ideal S6x5000x64 .f32) (x1 : Vec Ideal S6x64x64 .f32) (x2 : Vec Ideal S64 .f32) (p : Fin 5000) (q : Fin 64) :
    blockOut (F := Ideal) x0 x1 x2 (ix2 p q)
      = (((((blockTerm x0 x1 0 p q + blockTerm x0 x1 1 p q) + blockTerm x0 x1 2 p q) + blockTerm x0 x1 3 p q)
          + blockTerm x0 x1 4 p q) + blockTerm x0 x1 5 p q) + x2 (ix1 q) := by
  unfold blockOut k0_pay1 k0_pay2 k0_pay3 k0_pay4
  simp only [addf_at]
  rw [slab_apply x0 x1 0 (by decide) inb_S6x5000x64_S1x5000x64_0_0_0 inb_S6x64x64_S1x64x64_0_0_0 p q,
    slab_apply x0 x1 1 (by decide) inb_S6x5000x64_S1x5000x64_1_0_0 inb_S6x64x64_S1x64x64_1_0_0 p q,
    slab_apply x0 x1 2 (by decide) inb_S6x5000x64_S1x5000x64_2_0_0 inb_S6x64x64_S1x64x64_2_0_0 p q,
    slab_apply x0 x1 3 (by decide) inb_S6x5000x64_S1x5000x64_3_0_0 inb_S6x64x64_S1x64x64_3_0_0 p q,
    slab_apply x0 x1 4 (by decide) inb_S6x5000x64_S1x5000x64_4_0_0 inb_S6x64x64_S1x64x64_4_0_0 p q,
    slab_apply x0 x1 5 (by decide) inb_S6x5000x64_S1x5000x64_5_0_0 inb_S6x64x64_S1x64x64_5_0_0 p q,
    bias_apply x2 p q, zero_splat_apply, zero_add]
  rfl

end Cert.KernelIdeal.Hand

end
-- ==== Proof.IdealCover.lean ====
/-
  The output blocks of the 40-point grid cover the [200000, 64] result. Grid point t writes the block of 5000
  rows starting at row 5000 * t, over all 64 columns: its block index is (t, 0). So the row n lies in the block of
  point n / 5000, and every index of the result is in exactly that point's block. The input windows' block indices
  are recorded beside it: the feature stack moves along its row axis with the point, the weight stack and the bias
  row stay at block (0, 0, 0) and (0).
-/
import proofs.«146444_j24584392802821_2_alg».proof.Proof.Gen.KernelIdeal.Points
import proofs.«146444_j24584392802821_2_alg».proof.Proof.Gen.KernelIdeal.Launch
import Idealize.ShloMosaic.Lib.Pipeline.Value

noncomputable section

namespace Cert.KernelIdeal.Hand

open Cert.KernelIdeal Cert.KernelIdeal.Gen Idealize.ShloMosaic Idealize.ShloMosaic.TcCoe Idealize.SL.Sem

variable {F : FTy → Type} [FloatOps F]

/-- The output window's block index at point t is (t, 0). -/
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The feature window's block index at point t is (0, t, 0). -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)

/-- The weight window's block index is (0, 0, 0) at every point. -/
theorem idx1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

/-- The bias window's block index is (0) at every point. -/
theorem idx2 : ∀ t : Fin cfg0.N, win0_2.index t (0 : Fin 1) = 0 :=
  (by decide +kernel : ∀ t : Fin grid0.N, win0_2.index t (0 : Fin 1) = 0)

/-- An index of the result is in point t's output block iff each coordinate is in the block's range on its axis. -/
theorem mem_out_blk (t : Fin cfg0.N) (i : S200000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v98).slice (win0_3.rect t)).set ↔ _
  rw [View.set_slice_whole, Rect.mem_set_unit]
  exact Iff.rfl

/-- Every index of the result is in the output block of the point numbered by its row divided by 5000, and that
    point writes its block back. -/
theorem out_cover (i : S200000x64.Idx) : ∃ t : Fin cfg0.N, (cfg0.win 3).flush t = true ∧ i ∈ ((cfg0.win 3).blk t).view.set := by
  have hi0 : (i 0).val < 200000 := (i 0).isLt
  have hi1 : (i 1).val < 64 := (i 1).isLt
  have hN : cfg0.N = 40 := N_0
  let t : Fin cfg0.N := ⟨(i 0).val / 5000, by rw [hN]; omega⟩
  have ht : t.val = (i 0).val / 5000 := rfl
  obtain ⟨e0, e1⟩ := idx3 t
  refine ⟨t, flush0_3 t, ?_⟩
  rw [mem_out_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Cert.KernelIdeal.Hand
-- ==== Proof.IdealValue.lean ====
/-
  The kernel program's result as one function of what the region finds: `layer` of the feature stack, the weight
  array and the bias row.
  Point t of the grid holds rows 5000·t … 5000·t + 4999 of every slab of the stack, the whole weight array and the
  whole bias row, and writes back the block's value `blockOut` of them, which at row p and channel q is the layer at
  node 5000·t + p and channel q; so what point t writes back is block t of the layer. The forty blocks cover the
  result, each row n in the block of point n / 5000, so after the run the result is the layer.
-/
import proofs.«146444_j24584392802821_2_alg».proof.Proof.IdealFrame
import proofs.«146444_j24584392802821_2_alg».proof.Proof.IdealLayer
import proofs.«146444_j24584392802821_2_alg».proof.Proof.IdealBlockAt
import proofs.«146444_j24584392802821_2_alg».proof.Proof.IdealCover
import Idealize.ShloMosaic.Lib.Pipeline.Value

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem off2_zero : (![0, 0] : Fin 2 → Nat) = fun _ => 0 := funext fun a => by fin_cases a <;> rfl

/-- A block's value is the layer at the block's rows: if the feature block `x0` holds rows n of the stack's slabs at
    its row p, and the weight block and bias row are the arrays themselves, the stored value at (p, q) is the layer at
    (n, q). -/
theorem block_is_layer (S : Vec Ideal S6x200000x64 .f32) (W : Vec Ideal S6x64x64 .f32) (b : Vec Ideal S64 .f32)
    (x0 : Vec Ideal S6x5000x64 .f32) (x1 : Vec Ideal S6x64x64 .f32) (x2 : Vec Ideal S64 .f32)
    (p : Fin 5000) (q : Fin 64) (n : Fin 200000)
    (h0 : ∀ (j : Fin 6) (k : Fin 64), x0 (ix3 j p k) = S (ix3 j n k))
    (h1 : ∀ (j : Fin 6) (k : Fin 64), x1 (ix3 j k q) = W (ix3 j k q)) (h2 : x2 (ix1 q) = b (ix1 q)) :
    blockOut (F := Ideal) x0 x1 x2 (ix2 p q) = layer S W b (ix2 n q) := by
  rw [blockOut_apply]
  unfold layer blockTerm layerTerm
  simp only [h0, h1, h2]

/-- What point `t` writes back is block `t` of the layer of the arrays as the region finds them. -/
theorem flushed_eq (c : Dev nD) (t : Fin cfg0.N) :
    (dats m 0 c).flushed 3 t
      = ((cfg0.win 3).blk t).view.read (Elt Ideal) (layer (V m c main_v97) (V m c main_arg3) (V m c main_arg4)) := by
  show (cfg0.win 3).cut (grid0.coords t) ((dats m 0 c).after 3 t) = _
  rw [after_3]
  unfold out3
  rw [View.canon_unit_zero off2_zero]
  obtain ⟨e30, e31⟩ := idx3 t
  obtain ⟨e00, e01, e02⟩ := idx0 t
  obtain ⟨e10, e11, e12⟩ := idx1 t
  have e20 := idx2 t
  have ht : t.val < 40 := Nat.lt_of_lt_of_eq t.isLt N_0
  refine funext fun (y : S5000x64.Idx) => ?_
  obtain ⟨p, q, rfl⟩ : ∃ (p : Fin 5000) (q : Fin 64), y = ix2 p q := ⟨y 0, y 1, eq_ix2 y⟩
  have hp : p.val < 5000 := p.isLt
  have hq : q.val < 64 := q.isLt
  have hn : 5000 * t.val + p.val < 200000 := by omega
  refine (block_is_layer (V m c main_v97) (V m c main_arg3) (V m c main_arg4) (iblk m c 0 t) (iblk m c 1 t) (iblk m c 2 t)
    p q ⟨5000 * t.val + p.val, hn⟩ ?_ ?_ ?_).trans ?_
  · -- the feature block's row p is row 5000·t + p of every slab
    intro j k
    have hj : j.val < 6 := j.isLt
    have hk : k.val < 64 := k.isLt
    show V m c main_v97 (((cfg0.win 0).blk t).view.emb (ix3 j p k)) = V m c main_v97 (ix3 j ⟨5000 * t.val + p.val, hn⟩ k)
    refine congrArg _ (funext fun a => Fin.ext ?_)
    match a with
    | ⟨0, _⟩ => show win0_0.index t (0 : Fin 3) * 6 + 1 * j.val = j.val; omega
    | ⟨1, _⟩ => show win0_0.index t (1 : Fin 3) * 5000 + 1 * p.val = 5000 * t.val + p.val; omega
    | ⟨2, _⟩ => show win0_0.index t (2 : Fin 3) * 64 + 1 * k.val = k.val; omega
  · -- the weight block is the weight array
    intro j k
    have hj : j.val < 6 := j.isLt
    have hk : k.val < 64 := k.isLt
    show V m c main_arg3 (((cfg0.win 1).blk t).view.emb (ix3 j k q)) = V m c main_arg3 (ix3 j k q)
    refine congrArg _ (funext fun a => Fin.ext ?_)
    match a with
    | ⟨0, _⟩ => show win0_1.index t (0 : Fin 3) * 6 + 1 * j.val = j.val; omega
    | ⟨1, _⟩ => show win0_1.index t (1 : Fin 3) * 64 + 1 * k.val = k.val; omega
    | ⟨2, _⟩ => show win0_1.index t (2 : Fin 3) * 64 + 1 * q.val = q.val; omega
  · -- the bias block is the bias row
    show V m c main_arg4 (((cfg0.win 2).blk t).view.emb (ix1 q)) = V m c main_arg4 (ix1 q)
    refine congrArg _ (funext fun a => Fin.ext ?_)
    match a with
    | ⟨0, _⟩ => show win0_2.index t (0 : Fin 1) * 64 + 1 * q.val = q.val; omega
  · -- row p of the output block is row 5000·t + p of the result
    show layer (V m c main_v97) (V m c main_arg3) (V m c main_arg4) (ix2 ⟨5000 * t.val + p.val, hn⟩ q)
      = layer (V m c main_v97) (V m c main_arg3) (V m c main_arg4) (((cfg0.win 3).blk t).view.emb (ix2 p q))
    refine congrArg _ (funext fun a => Fin.ext ?_)
    match a with
    | ⟨0, _⟩ => show 5000 * t.val + p.val = win0_3.index t (0 : Fin 2) * 5000 + 1 * p.val; omega
    | ⟨1, _⟩ => show q.val = win0_3.index t (1 : Fin 2) * 64 + 1 * q.val; omega

/-- After the run the result array is the layer of the arrays as the region finds them: the forty blocks cover it. -/
theorem final_eq (c : Dev nD) :
    (dats m 0 c).arrAt 3 cfg0.N = layer (V m c main_v97) (V m c main_arg3) (V m c main_arg4) :=
  (dats m 0 c).arrAt_eq_of_cover 3 _ (fun t _ => flushed_eq m c t) (fun i => out_cover i)

end Cert.KernelIdeal.Hand

end
-- ==== Proof.IdealResult.lean ====
/-
  The kernel program's run with its result named: every weakly fair execution terminates, the result array ends at
  the layer of the feature stack, the weight array and the bias row as the region finds them, and the five argument
  arrays end as launched.
-/
import proofs.«146444_j24584392802821_2_alg».proof.Proof.IdealValue

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- After the frame run the result array is what the forty write-backs left of it: the layer. -/
theorem result_of_post (r : PUnit × MemSt nD τ sig (Elt Ideal)) (h : Pipeline.FramePost cfgs (dats m) 0 (V m) r) (c : Dev nD) :
    r.2.mem ((c.tc : Thread nD τ).loc main_v98) = layer (V m c main_v97) (V m c main_arg3) (V m c main_arg4) :=
  ((h c).1 3).trans (final_eq m c)

/-- After the frame run the argument arrays are as launched: three are staged by no window, two are input windows. -/
theorem args_of_post (r : PUnit × MemSt nD τ sig (Elt Ideal)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 1).trans (((dats m 0 c).arrAt_in 1 rfl _).trans ((A_eq m c 1).trans (V_main_arg3 m c))),
    ((h c).1 2).trans (((dats m 0 c).arrAt_in 2 rfl _).trans ((A_eq m c 2).trans (V_main_arg4 m c)))⟩

/-- The run, read. -/
theorem run_layer : θ_run defs (onTc (τ := τ) (main (F := Ideal))) ⟨m, fun _ => 0, ρ⟩ fun r => ∀ c : Dev nD,
      r.2.mem ((c.tc : Thread nD τ).loc main_v98) = layer (V m c main_v97) (V m c main_arg3) (V m c main_arg4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨result_of_post m r h c, args_of_post m r h c⟩) (run_main m ρ)

end Cert.KernelIdeal.Hand

end
-- ==== Proof.IdealHost.lean ====
/-
  The host lines of the kernel program, as functions of the argument arrays.
  The lines scale the edge weights (`scaledWeights`), append one self loop of weight −1 per node (`edgeNorm`, and the
  two rows of the edge index array with the nodes' own numbers appended: `edgeEnds0` the sources, `edgeEnds1` the
  targets), and run the Chebyshev recursion T1 = L·x, Tk = 2·L·Tk−1 − Tk−2, where one propagation L·z gathers the
  source rows of z, scales each by its edge's norm and adds it into its target row (`propagate`). The six feature
  arrays x, T1, …, T5 are stacked into one [6, 200000, 64] array (`stackOf`), which the region reads.
-/
import proofs.«146444_j24584392802821_2_alg».proof.Proof.IdealFrame
import Idealize.ShloMosaic.Lib.StableHlo.Run
import Idealize.ShloMosaic.Lib.ValueIdx
import Idealize.ShloMosaic.PureOps.Ideal

set_option maxRecDepth 16384

noncomputable section

open scoped BigOperators

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-! ## The host lines as functions -/

/-- The edge weights times the folded constant −1, an entry equal to +inf replaced by 0. -/
def scaledWeights (x2 : Vec F S3200000 .f32) : Vec F S3200000 .f32 :=
  select
    (cmpf .oeq (mulf (broadcastInDim S3200000 ![] bcast_S_S3200000 (constant S_ .f32 0xBF800000#32)) x2)
      (broadcastInDim S3200000 ![] bcast_S_S3200000 (constant S_ .f32 0x7F800000#32)))
    (broadcastInDim S3200000 ![] bcast_S_S3200000 (id (constant S_ .f32 0x00000000#32)))
    (mulf (broadcastInDim S3200000 ![] bcast_S_S3200000 (constant S_ .f32 0xBF800000#32)) x2)

/-- The edges' norms followed by −1 for each node's self loop. -/
def edgeNorm (w : Vec F S3200000 .f32) : Vec F S3400000 .f32 :=
  concatenate S3400000 0 [⟨S3200000, w⟩, ⟨S200000, broadcastInDim S200000 ![] bcast_S_S200000 (constant S_ .f32 0xBF800000#32)⟩]
    concatenates_S3200000_S200000_S3400000_d0

/-- The edges' source nodes followed by every node's own number. -/
def edgeEnds0 (x1 : Vec F S2x3200000 .i32) : Vec F S3400000 .i32 :=
  concatenate S3400000 0
    [⟨S3200000, shapeCast _ (extractStridedSlice S1x3200000 ![0, 0] x1 slices_S2x3200000_S1x3200000_0_0) shapeCasts_S1x3200000_S3200000⟩,
     ⟨S200000, iotaInDim S200000 32 0⟩] concatenates_S3200000_S200000_S3400000_d0

/-- The edges' target nodes followed by every node's own number. -/
def edgeEnds1 (x1 : Vec F S2x3200000 .i32) : Vec F S3400000 .i32 :=
  concatenate S3400000 0
    [⟨S3200000, shapeCast _ (extractStridedSlice S1x3200000 ![1, 0] x1 slices_S2x3200000_S1x3200000_1_0) shapeCasts_S1x3200000_S3200000⟩,
     ⟨S200000, iotaInDim S200000 32 0⟩] concatenates_S3200000_S200000_S3400000_d0

/-- One propagation: row e of the messages is norm[e] times row src[e] of z (a negative index counted from the end),
    and the messages are added into the rows dst[e] of a zero array. -/
def propagate (norm : Vec F S3400000 .f32) (src dst : Vec F S3400000 .i32) (z : Vec F S200000x64 .f32) : Vec F S200000x64 .f32 :=
  Host.scatterAdd scatter_S200000x64_S3400000x1_S3400000x64_1_0_0_1
    (broadcastInDim S200000x64 ![] bcast_S_S200000x64 (constant S_ .f32 0x00000000#32))
    (broadcastInDim S3400000x1 ![0] bcast_S3400000_S3400000x1_0 dst)
    (mulf
      (broadcastInDim S3400000x64 ![0, 1] bcast_S3400000x1_S3400000x64_0_1
        (broadcastInDim S3400000x1 ![0] bcast_S3400000_S3400000x1_0 norm))
      (Host.gather gather_S200000x64_S3400000x1_S3400000x64_1_0_n_n_0_1_164 z
        (broadcastInDim S3400000x1 ![0] bcast_S3400000_S3400000x1_0
          (select (cmpi .slt src (broadcastInDim S3400000 ![] bcast_S_S3400000 (constantI S_ 32 0#32)))
            (addi src (broadcastInDim S3400000 ![] bcast_S_S3400000 (constantI S_ 32 200000#32))) src))))

/-- The recursion's step: twice the propagated features minus the features two orders back. -/
def chebNext (p prev2 : Vec F S200000x64 .f32) : Vec F S200000x64 .f32 :=
  subf (mulf (broadcastInDim S200000x64 ![] bcast_S_S200000x64 (constant S_ .f32 0x40000000#32)) p) prev2

/-- The Chebyshev features of orders 1 … 5, from the scaled weights `w`, the features `x0` and the edge index array `x1`. -/
def feat1 (w : Vec F S3200000 .f32) (x0 : Vec F S200000x64 .f32) (x1 : Vec F S2x3200000 .i32) : Vec F S200000x64 .f32 :=
  propagate (edgeNorm w) (edgeEnds0 x1) (edgeEnds1 x1) x0
def feat2 (w : Vec F S3200000 .f32) (x0 : Vec F S200000x64 .f32) (x1 : Vec F S2x3200000 .i32) : Vec F S200000x64 .f32 :=
  chebNext (propagate (edgeNorm w) (edgeEnds0 x1) (edgeEnds1 x1) (feat1 w x0 x1)) x0
def feat3 (w : Vec F S3200000 .f32) (x0 : Vec F S200000x64 .f32) (x1 : Vec F S2x3200000 .i32) : Vec F S200000x64 .f32 :=
  chebNext (propagate (edgeNorm w) (edgeEnds0 x1) (edgeEnds1 x1) (feat2 w x0 x1)) (feat1 w x0 x1)
def feat4 (w : Vec F S3200000 .f32) (x0 : Vec F S200000x64 .f32) (x1 : Vec F S2x3200000 .i32) : Vec F S200000x64 .f32 :=
  chebNext (propagate (edgeNorm w) (edgeEnds0 x1) (edgeEnds1 x1) (feat3 w x0 x1)) (feat2 w x0 x1)
def feat5 (w : Vec F S3200000 .f32) (x0 : Vec F S200000x64 .f32) (x1 : Vec F S2x3200000 .i32) : Vec F S200000x64 .f32 :=
  chebNext (propagate (edgeNorm w) (edgeEnds0 x1) (edgeEnds1 x1) (feat4 w x0 x1)) (feat3 w x0 x1)

/-- Six [200000, 64] arrays stacked along a new leading axis. -/
def stackOf (T0 T1 T2 T3 T4 T5 : Vec F S200000x64 .f32) : Vec F S6x200000x64 .f32 :=
  concatenate S6x200000x64 0
    [⟨S1x200000x64, broadcastInDim S1x200000x64 ![1, 2] bcast_S200000x64_S1x200000x64_1_2 T0⟩,
     ⟨S1x200000x64, broadcastInDim S1x200000x64 ![1, 2] bcast_S200000x64_S1x200000x64_1_2 T1⟩,
     ⟨S1x200000x64, broadcastInDim S1x200000x64 ![1, 2] bcast_S200000x64_S1x200000x64_1_2 T2⟩,
     ⟨S1x200000x64, broadcastInDim S1x200000x64 ![1, 2] bcast_S200000x64_S1x200000x64_1_2 T3⟩,
     ⟨S1x200000x64, broadcastInDim S1x200000x64 ![1, 2] bcast_S200000x64_S1x200000x64_1_2 T4⟩,
     ⟨S1x200000x64, broadcastInDim S1x200000x64 ![1, 2] bcast_S200000x64_S1x200000x64_1_2 T5⟩]
    concatenates_S1x200000x64_S1x200000x64_S1x200000x64_S1x200000x64_S1x200000x64_S1x200000x64_S6x200000x64_d0

/-! ## What the region finds in the feature stack -/

set_option maxHeartbeats 8000000 in
/-- When the region is entered, the feature stack holds the six Chebyshev feature arrays of the argument arrays. -/
theorem V_stack (m : (ℓ : Loc nD τ sig) → Buf (Elt F) ℓ) (c : Dev nD) :
    (V m c main_v97 : Vec F S6x200000x64 .f32)
      = stackOf (m ((c : Thread nD τ).loc main_arg0))
          (feat1 (scaledWeights (m ((c : Thread nD τ).loc main_arg2))) (m ((c : Thread nD τ).loc main_arg0)) (m ((c : Thread nD τ).loc main_arg1)))
          (feat2 (scaledWeights (m ((c : Thread nD τ).loc main_arg2))) (m ((c : Thread nD τ).loc main_arg0)) (m ((c : Thread nD τ).loc main_arg1)))
          (feat3 (scaledWeights (m ((c : Thread nD τ).loc main_arg2))) (m ((c : Thread nD τ).loc main_arg0)) (m ((c : Thread nD τ).loc main_arg1)))
          (feat4 (scaledWeights (m ((c : Thread nD τ).loc main_arg2))) (m ((c : Thread nD τ).loc main_arg0)) (m ((c : Thread nD τ).loc main_arg1)))
          (feat5 (scaledWeights (m ((c : Thread nD τ).loc main_arg2))) (m ((c : Thread nD τ).loc main_arg0)) (m ((c : Thread nD τ).loc main_arg1))) := by
  dsimp only [V]
  simp only [hostOps0, hostOps0_1, hostOps0_2, List.flatten_cons, List.flatten_nil, List.append_nil, List.cons_append, List.nil_append]
  after_results
  rfl

end Cert.KernelIdeal.Hand

end
-- ==== Proof.StackAt.lean ====
import proofs.«146444_j24584392802821_2_alg».proof.Proof.Gen.KernelIdeal
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

variable {F : FTy → Type} [FloatOps F]

/-- A `[200000, 64]` array given a new leading unit axis, read at `(0, n, k)`, is the array at `(n, k)`. -/
theorem unitAxis_apply {α : Type} (T : S200000x64.Idx → α) (n : Fin 200000) (k : Fin 64) :
    broadcastInDim S1x200000x64 ![1, 2] bcast_S200000x64_S1x200000x64_1_2 T (ix3 (0 : Fin 1) n k) = T (ix2 n k) := by
  refine broadcastInDim_apply _ bcast_S200000x64_S1x200000x64_1_2 T _ (ix2 n k) ?_
  intro a
  match a with
  | ⟨0, _⟩ => rfl
  | ⟨1, _⟩ => rfl

/-- Six `[200000, 64]` arrays stacked along a new leading axis (each given a leading unit axis, the six joined along
    it), read at `(j, n, k)`: the `j`-th array at `(n, k)`. -/
theorem stack_apply (T0 T1 T2 T3 T4 T5 : Vec F S200000x64 .f32) (j : Fin 6) (n : Fin 200000) (k : Fin 64) :
    concatenate S6x200000x64 0
        [⟨S1x200000x64, broadcastInDim S1x200000x64 ![1, 2] bcast_S200000x64_S1x200000x64_1_2 T0⟩,
         ⟨S1x200000x64, broadcastInDim S1x200000x64 ![1, 2] bcast_S200000x64_S1x200000x64_1_2 T1⟩,
         ⟨S1x200000x64, broadcastInDim S1x200000x64 ![1, 2] bcast_S200000x64_S1x200000x64_1_2 T2⟩,
         ⟨S1x200000x64, broadcastInDim S1x200000x64 ![1, 2] bcast_S200000x64_S1x200000x64_1_2 T3⟩,
         ⟨S1x200000x64, broadcastInDim S1x200000x64 ![1, 2] bcast_S200000x64_S1x200000x64_1_2 T4⟩,
         ⟨S1x200000x64, broadcastInDim S1x200000x64 ![1, 2] bcast_S200000x64_S1x200000x64_1_2 T5⟩]
        concatenates_S1x200000x64_S1x200000x64_S1x200000x64_S1x200000x64_S1x200000x64_S1x200000x64_S6x200000x64_d0
        (ValueIdx.ix3 j n k)
      = (![T0, T1, T2, T3, T4, T5] j) (ValueIdx.ix2 n k) := by
  -- the six pieces as one family over the stacked axis
  let f : Fin 6 → (S1x200000x64.Idx → Elt F .f32) := fun m =>
    broadcastInDim S1x200000x64 ![1, 2] bcast_S200000x64_S1x200000x64_1_2 (![T0, T1, T2, T3, T4, T5] m)
  have key : concatenate S6x200000x64 0 (List.ofFn fun m : Fin 6 => (⟨S1x200000x64, f m⟩ : (s : Shape) × (s.Idx → Elt F .f32)))
      concatenates_S1x200000x64_S1x200000x64_S1x200000x64_S1x200000x64_S1x200000x64_S1x200000x64_S6x200000x64_d0
      (ix3 j n k) = f j (ix3 (0 : Fin 1) n k) := by
    refine concatenate_ofFn_unit_apply (t := S6x200000x64) (s₁ := S1x200000x64) 0 f _ rfl rfl (ix3 j n k) j rfl
      (ix3 (0 : Fin 1) n k) ?_
    intro b hb
    match b, hb with
    | ⟨0, _⟩, hb => exact absurd rfl hb
    | ⟨1, _⟩, _ => rfl
    | ⟨2, _⟩, _ => rfl
  refine (show _ = f j (ix3 (0 : Fin 1) n k) from key).trans ?_
  exact unitAxis_apply _ n k

end Cert.KernelIdeal.Hand
-- ==== Proof.RefLayer.lean ====
/-
  The reference layer read at one output element. The reference adds six matrix products, one per polynomial
  order j = 0 … 5: the order-j features (a [200000, 64] array) times the j-th [64, 64] matrix of the stacked weight
  array, summed left to right, and then the bias row broadcast over the nodes. At node n and output channel q each
  product is the sum over the 64 input channels k of feature (n, k) times weight (j, k, q). The weight matrix j is
  obtained from the stack by a slice [j : j+1] followed by a reshape to [64, 64]; at row-major position k * 64 + q of
  that reshape the slice is read at (0, k, q), that is the stack at (j, k, q).
-/
import proofs.«146444_j24584392802821_2_alg».proof.Proof.Gen.ReferenceIdeal.Read
import Idealize.ShloMosaic.Lib.ValueIdx

noncomputable section

namespace Cert.ReferenceIdeal.RefValue

open Idealize.ShloMosaic Idealize.ShloMosaic.ValueIdx Cert.ReferenceIdeal Cert.ReferenceIdeal.Read
open scoped BigOperators

/-- Order j's contribution at node n and output channel q: the features T times weight matrix j. -/
def refTerm (T : Vec Ideal S200000x64 .f32) (W : Vec Ideal S6x64x64 .f32) (j : Fin 6) (n : Fin 200000) (q : Fin 64) : EReal :=
  ∑ k : Fin 64, T (ix2 n k) * W (ix3 j k q)

/-- Order 0: the left operand of the product is read at (n, k). -/
theorem lidx0_eq (n : Fin 200000) (q k : Fin 64) : lidx_main_v19 (ix2 n q) k = ix2 n k :=
  funext fun a => Fin.ext (by
    match a with
    | ⟨0, _⟩ => rfl
    | ⟨1, _⟩ => rfl)

/-- Order 0: the right operand at (k, q) is the weight stack at (0, k, q). -/
theorem widx0_eq (n : Fin 200000) (q k : Fin 64) :
    idx_main_v17 (idx_main_v18 (ridx_main_v19 (ix2 n q) k)) = ix3 (0 : Fin 6) k q :=
  funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)

/-- Order 0's product at (n, q) is the sum over the input channels. -/
theorem term0 (x0 : Vec Ideal S200000x64 .f32) (x3 : Vec Ideal S6x64x64 .f32) (n : Fin 200000) (q : Fin 64) :
    val_main_v19 (F := Ideal) x0 x3 (ix2 n q) = refTerm x0 x3 0 n q := by
  rw [val_main_v19_apply]
  unfold refTerm
  refine Finset.sum_congr rfl fun k _ => ?_
  rw [val_main_v18_apply, val_main_v17_apply, lidx0_eq, widx0_eq]

/-- Order 1: the left operand of the product is read at (n, k). -/
theorem lidx1_eq (n : Fin 200000) (q k : Fin 64) : lidx_main_v35 (ix2 n q) k = ix2 n k :=
  funext fun a => Fin.ext (by
    match a with
    | ⟨0, _⟩ => rfl
    | ⟨1, _⟩ => rfl)

/-- Order 1: the right operand at (k, q) is the weight stack at (1, k, q). -/
theorem widx1_eq (n : Fin 200000) (q k : Fin 64) :
    idx_main_v33 (idx_main_v34 (ridx_main_v35 (ix2 n q) k)) = ix3 (1 : Fin 6) k q :=
  funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)

/-- Order 1's product at (n, q) is the sum over the input channels. -/
theorem term1 (x0 : Vec Ideal S200000x64 .f32) (x1 : Vec Ideal S2x3200000 .i32) (x2 : Vec Ideal S3200000 .f32) (x3 : Vec Ideal S6x64x64 .f32) (n : Fin 200000) (q : Fin 64) :
    val_main_v35 (F := Ideal) x0 x1 x2 x3 (ix2 n q) = refTerm (val_main_v32 (F := Ideal) x0 x1 x2) x3 1 n q := by
  rw [val_main_v35_apply]
  unfold refTerm
  refine Finset.sum_congr rfl fun k _ => ?_
  rw [val_main_v34_apply, val_main_v33_apply, lidx1_eq, widx1_eq]

/-- Order 2: the left operand of the product is read at (n, k). -/
theorem lidx2_eq (n : Fin 200000) (q k : Fin 64) : lidx_main_v55 (ix2 n q) k = ix2 n k :=
  funext fun a => Fin.ext (by
    match a with
    | ⟨0, _⟩ => rfl
    | ⟨1, _⟩ => rfl)

/-- Order 2: the right operand at (k, q) is the weight stack at (2, k, q). -/
theorem widx2_eq (n : Fin 200000) (q k : Fin 64) :
    idx_main_v53 (idx_main_v54 (ridx_main_v55 (ix2 n q) k)) = ix3 (2 : Fin 6) k q :=
  funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)

/-- Order 2's product at (n, q) is the sum over the input channels. -/
theorem term2 (x0 : Vec Ideal S200000x64 .f32) (x1 : Vec Ideal S2x3200000 .i32) (x2 : Vec Ideal S3200000 .f32) (x3 : Vec Ideal S6x64x64 .f32) (n : Fin 200000) (q : Fin 64) :
    val_main_v55 (F := Ideal) x0 x1 x2 x3 (ix2 n q) = refTerm (val_main_v52 (F := Ideal) x0 x1 x2) x3 2 n q := by
  rw [val_main_v55_apply]
  unfold refTerm
  refine Finset.sum_congr rfl fun k _ => ?_
  rw [val_main_v54_apply, val_main_v53_apply, lidx2_eq, widx2_eq]

/-- Order 3: the left operand of the product is read at (n, k). -/
theorem lidx3_eq (n : Fin 200000) (q k : Fin 64) : lidx_main_v75 (ix2 n q) k = ix2 n k :=
  funext fun a => Fin.ext (by
    match a with
    | ⟨0, _⟩ => rfl
    | ⟨1, _⟩ => rfl)

/-- Order 3: the right operand at (k, q) is the weight stack at (3, k, q). -/
theorem widx3_eq (n : Fin 200000) (q k : Fin 64) :
    idx_main_v73 (idx_main_v74 (ridx_main_v75 (ix2 n q) k)) = ix3 (3 : Fin 6) k q :=
  funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)

/-- Order 3's product at (n, q) is the sum over the input channels. -/
theorem term3 (x0 : Vec Ideal S200000x64 .f32) (x1 : Vec Ideal S2x3200000 .i32) (x2 : Vec Ideal S3200000 .f32) (x3 : Vec Ideal S6x64x64 .f32) (n : Fin 200000) (q : Fin 64) :
    val_main_v75 (F := Ideal) x0 x1 x2 x3 (ix2 n q) = refTerm (val_main_v72 (F := Ideal) x0 x1 x2) x3 3 n q := by
  rw [val_main_v75_apply]
  unfold refTerm
  refine Finset.sum_congr rfl fun k _ => ?_
  rw [val_main_v74_apply, val_main_v73_apply, lidx3_eq, widx3_eq]

/-- Order 4: the left operand of the product is read at (n, k). -/
theorem lidx4_eq (n : Fin 200000) (q k : Fin 64) : lidx_main_v95 (ix2 n q) k = ix2 n k :=
  funext fun a => Fin.ext (by
    match a with
    | ⟨0, _⟩ => rfl
    | ⟨1, _⟩ => rfl)

/-- Order 4: the right operand at (k, q) is the weight stack at (4, k, q). -/
theorem widx4_eq (n : Fin 200000) (q k : Fin 64) :
    idx_main_v93 (idx_main_v94 (ridx_main_v95 (ix2 n q) k)) = ix3 (4 : Fin 6) k q :=
  funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)

/-- Order 4's product at (n, q) is the sum over the input channels. -/
theorem term4 (x0 : Vec Ideal S200000x64 .f32) (x1 : Vec Ideal S2x3200000 .i32) (x2 : Vec Ideal S3200000 .f32) (x3 : Vec Ideal S6x64x64 .f32) (n : Fin 200000) (q : Fin 64) :
    val_main_v95 (F := Ideal) x0 x1 x2 x3 (ix2 n q) = refTerm (val_main_v92 (F := Ideal) x0 x1 x2) x3 4 n q := by
  rw [val_main_v95_apply]
  unfold refTerm
  refine Finset.sum_congr rfl fun k _ => ?_
  rw [val_main_v94_apply, val_main_v93_apply, lidx4_eq, widx4_eq]

/-- Order 5: the left operand of the product is read at (n, k). -/
theorem lidx5_eq (n : Fin 200000) (q k : Fin 64) : lidx_main_v115 (ix2 n q) k = ix2 n k :=
  funext fun a => Fin.ext (by
    match a with
    | ⟨0, _⟩ => rfl
    | ⟨1, _⟩ => rfl)

/-- Order 5: the right operand at (k, q) is the weight stack at (5, k, q). -/
theorem widx5_eq (n : Fin 200000) (q k : Fin 64) :
    idx_main_v113 (idx_main_v114 (ridx_main_v115 (ix2 n q) k)) = ix3 (5 : Fin 6) k q :=
  funext fun a => Fin.ext (by
    have hk : k.val < 64 := k.isLt
    have hq : q.val < 64 := q.isLt
    match a with
    | ⟨0, _⟩ => rfl
    | ⟨1, _⟩ => show (k.val * 64 + q.val) / 64 % 64 = k.val; omega
    | ⟨2, _⟩ => show (k.val * 64 + q.val) % 64 = q.val; omega)

/-- Order 5's product at (n, q) is the sum over the input channels. -/
theorem term5 (x0 : Vec Ideal S200000x64 .f32) (x1 : Vec Ideal S2x3200000 .i32) (x2 : Vec Ideal S3200000 .f32) (x3 : Vec Ideal S6x64x64 .f32) (n : Fin 200000) (q : Fin 64) :
    val_main_v115 (F := Ideal) x0 x1 x2 x3 (ix2 n q) = refTerm (val_main_v112 (F := Ideal) x0 x1 x2) x3 5 n q := by
  rw [val_main_v115_apply]
  unfold refTerm
  refine Finset.sum_congr rfl fun k _ => ?_
  rw [val_main_v114_apply, val_main_v113_apply, lidx5_eq, widx5_eq]

/-- The broadcast bias at (n, q) is the bias at q. -/
theorem bidx_eq (n : Fin 200000) (q : Fin 64) : idx_main_v117 (idx_main_v118 (ix2 n q)) = ix1 q :=
  funext fun a => Fin.ext (by
    match a with
    | ⟨0, _⟩ => rfl)

/-- The reference output at node n and channel q: the six order terms added left to right, then the bias. -/
theorem ref_apply (x0 : Vec Ideal S200000x64 .f32) (x1 : Vec Ideal S2x3200000 .i32) (x2 : Vec Ideal S3200000 .f32) (x3 : Vec Ideal S6x64x64 .f32) (x4 : Vec Ideal S64 .f32) (n : Fin 200000) (q : Fin 64) :
    val_main_v119 (F := Ideal) x0 x1 x2 x3 x4 (ix2 n q)
      = (((((refTerm x0 x3 0 n q + refTerm (val_main_v32 (F := Ideal) x0 x1 x2) x3 1 n q) + refTerm (val_main_v52 (F := Ideal) x0 x1 x2) x3 2 n q)
            + refTerm (val_main_v72 (F := Ideal) x0 x1 x2) x3 3 n q) + refTerm (val_main_v92 (F := Ideal) x0 x1 x2) x3 4 n q)
          + refTerm (val_main_v112 (F := Ideal) x0 x1 x2) x3 5 n q) + x4 (ix1 q) := by
  rw [val_main_v119_apply, val_main_v116_apply, val_main_v96_apply, val_main_v76_apply, val_main_v56_apply, val_main_v36_apply,
    term0, term1, term2, term3, term4, term5, val_main_v118_apply, val_main_v117_apply, bidx_eq]
  rfl

end Cert.ReferenceIdeal.RefValue
-- ==== Proof.LayerStack.lean ====
/-
  The layer over the stacked features, in terms of the six feature arrays themselves: when slab j of the stack S is
  the array T j, order j's term Σk S[j, n, k]·W[j, k, q] is Σk (T j)[n, k]·W[j, k, q], the reference's order-j term.
-/
import proofs.«146444_j24584392802821_2_alg».proof.Proof.IdealLayer
import proofs.«146444_j24584392802821_2_alg».proof.Proof.StackAt
import proofs.«146444_j24584392802821_2_alg».proof.Proof.RefLayer

noncomputable section

open scoped BigOperators

namespace Cert.KernelIdeal.Hand

open Idealize.ShloMosaic Idealize.ShloMosaic.ValueIdx Cert.KernelIdeal Cert.KernelIdeal.Gen
open Cert.ReferenceIdeal.RefValue (refTerm)

/-- If slab `j` of the stack `S` is the array `T j` (for each of the six `j`), the layer at node `n` and output
    channel `q` is the six arrays' terms added in order, plus the bias. -/
theorem layer_of_slabs (S : Vec Ideal S6x200000x64 .f32) (T : Fin 6 → Vec Ideal S200000x64 .f32)
    (hS : ∀ (j : Fin 6) (n : Fin 200000) (k : Fin 64), S (ix3 j n k) = T j (ix2 n k))
    (W : Vec Ideal S6x64x64 .f32) (b : Vec Ideal S64 .f32) (n : Fin 200000) (q : Fin 64) :
    layer S W b (ix2 n q)
      = (((((refTerm (T 0) W 0 n q + refTerm (T 1) W 1 n q) + refTerm (T 2) W 2 n q) + refTerm (T 3) W 3 n q)
          + refTerm (T 4) W 4 n q) + refTerm (T 5) W 5 n q) + b (ix1 q) := by
  have h : ∀ j : Fin 6, layerTerm S W j n q = refTerm (T j) W j n q := fun j => by
    unfold layerTerm Cert.ReferenceIdeal.RefValue.refTerm
    exact Finset.sum_congr rfl fun k _ => by rw [hS]
  show (((((layerTerm S W 0 n q + layerTerm S W 1 n q) + layerTerm S W 2 n q) + layerTerm S W 3 n q)
      + layerTerm S W 4 n q) + layerTerm S W 5 n q) + b (ix1 q) = _
  rw [h 0, h 1, h 2, h 3, h 4, h 5]

/-- The layer over six arrays stacked along a new leading axis: the six arrays' terms added in order, plus the bias. -/
theorem layer_stack (T0 T1 T2 T3 T4 T5 : Vec Ideal S200000x64 .f32) (W : Vec Ideal S6x64x64 .f32) (b : Vec Ideal S64 .f32)
    (n : Fin 200000) (q : Fin 64) :
    layer (concatenate S6x200000x64 0
        [⟨S1x200000x64, broadcastInDim S1x200000x64 ![1, 2] bcast_S200000x64_S1x200000x64_1_2 T0⟩,
         ⟨S1x200000x64, broadcastInDim S1x200000x64 ![1, 2] bcast_S200000x64_S1x200000x64_1_2 T1⟩,
         ⟨S1x200000x64, broadcastInDim S1x200000x64 ![1, 2] bcast_S200000x64_S1x200000x64_1_2 T2⟩,
         ⟨S1x200000x64, broadcastInDim S1x200000x64 ![1, 2] bcast_S200000x64_S1x200000x64_1_2 T3⟩,
         ⟨S1x200000x64, broadcastInDim S1x200000x64 ![1, 2] bcast_S200000x64_S1x200000x64_1_2 T4⟩,
         ⟨S1x200000x64, broadcastInDim S1x200000x64 ![1, 2] bcast_S200000x64_S1x200000x64_1_2 T5⟩]
        concatenates_S1x200000x64_S1x200000x64_S1x200000x64_S1x200000x64_S1x200000x64_S1x200000x64_S6x200000x64_d0)
      W b (ix2 n q)
      = (((((Cert.ReferenceIdeal.RefValue.refTerm T0 W 0 n q + Cert.ReferenceIdeal.RefValue.refTerm T1 W 1 n q)
          + Cert.ReferenceIdeal.RefValue.refTerm T2 W 2 n q) + Cert.ReferenceIdeal.RefValue.refTerm T3 W 3 n q)
          + Cert.ReferenceIdeal.RefValue.refTerm T4 W 4 n q) + Cert.ReferenceIdeal.RefValue.refTerm T5 W 5 n q)
          + b (ix1 q) :=
  layer_of_slabs _ ![T0, T1, T2, T3, T4, T5] (fun j n k => stack_apply T0 T1 T2 T3 T4 T5 j n k) W b n q

end Cert.KernelIdeal.Hand
-- ==== Proof.HostIsRef.lean ====
/-
  The host lines of the kernel program compute the reference's Chebyshev features. With the reference's scaled
  edge weights in the place of the kernel's, each feature array of order 1 … 5 is built by the same operations in
  both programs: one propagation gathers the source rows of the previous order, scales each by its edge's norm and
  adds it into its target row of a zero array, over the same edge list with one self loop of weight −1 appended per
  node; from order 2 on, the propagated array is doubled and the array two orders back subtracted. The two programs
  name their shapes and index records separately, but the shapes are the same literals and the records have the
  same fields, so each equation holds by unfolding both sides, one order at a time with the lower orders already
  identified.
-/
import proofs.«146444_j24584392802821_2_alg».proof.Proof.IdealHost
import proofs.«146444_j24584392802821_2_alg».proof.Proof.Gen.ReferenceIdeal.Read

set_option maxRecDepth 16384

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

/-- The first-order features are the reference's first propagation: the same scatter of the same scaled gathered rows. -/
theorem feat1_ref (x0 : Vec Ideal S200000x64 .f32) (x1 : Vec Ideal S2x3200000 .i32) (x2 : Vec Ideal S3200000 .f32) :
    feat1 (F := Ideal) (Cert.ReferenceIdeal.Read.val_main_v7 (F := Ideal) x2) x0 x1 = Cert.ReferenceIdeal.Read.val_main_v32 (F := Ideal) x0 x1 x2 := rfl

/-- The order-2 features are the reference's: twice the propagation of order 1 minus order 0, the lower orders already identified. -/
theorem feat2_ref (x0 : Vec Ideal S200000x64 .f32) (x1 : Vec Ideal S2x3200000 .i32) (x2 : Vec Ideal S3200000 .f32) :
    feat2 (F := Ideal) (Cert.ReferenceIdeal.Read.val_main_v7 (F := Ideal) x2) x0 x1 = Cert.ReferenceIdeal.Read.val_main_v52 (F := Ideal) x0 x1 x2 := by
  unfold feat2
  rw [feat1_ref]
  rfl

/-- The order-3 features are the reference's: twice the propagation of order 2 minus order 1, the lower orders already identified. -/
theorem feat3_ref (x0 : Vec Ideal S200000x64 .f32) (x1 : Vec Ideal S2x3200000 .i32) (x2 : Vec Ideal S3200000 .f32) :
    feat3 (F := Ideal) (Cert.ReferenceIdeal.Read.val_main_v7 (F := Ideal) x2) x0 x1 = Cert.ReferenceIdeal.Read.val_main_v72 (F := Ideal) x0 x1 x2 := by
  unfold feat3
  rw [feat2_ref, feat1_ref]
  rfl

/-- The order-4 features are the reference's: twice the propagation of order 3 minus order 2, the lower orders already identified. -/
theorem feat4_ref (x0 : Vec Ideal S200000x64 .f32) (x1 : Vec Ideal S2x3200000 .i32) (x2 : Vec Ideal S3200000 .f32) :
    feat4 (F := Ideal) (Cert.ReferenceIdeal.Read.val_main_v7 (F := Ideal) x2) x0 x1 = Cert.ReferenceIdeal.Read.val_main_v92 (F := Ideal) x0 x1 x2 := by
  unfold feat4
  rw [feat3_ref, feat2_ref]
  rfl

/-- The order-5 features are the reference's: twice the propagation of order 4 minus order 3, the lower orders already identified. -/
theorem feat5_ref (x0 : Vec Ideal S200000x64 .f32) (x1 : Vec Ideal S2x3200000 .i32) (x2 : Vec Ideal S3200000 .f32) :
    feat5 (F := Ideal) (Cert.ReferenceIdeal.Read.val_main_v7 (F := Ideal) x2) x0 x1 = Cert.ReferenceIdeal.Read.val_main_v112 (F := Ideal) x0 x1 x2 := by
  unfold feat5
  rw [feat4_ref, feat3_ref]
  rfl

end Cert.KernelIdeal.Hand
-- ==== Proof.ScaledWeights.lean ====
import proofs.«146444_j24584392802821_2_alg».proof.Proof.Gen.KernelIdeal
import proofs.«146444_j24584392802821_2_alg».proof.Proof.Gen.ReferenceIdeal.Read
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-- The pattern of `-1.0` is the real number `-1`. -/
theorem ofBits_neg_one : Ideal.ofBits .f32 0xBF800000#32 = ((-1 : ℝ) : EReal) := by
  simp [Ideal.ofBits, Ideal.ieee, -EReal.coe_mul]; norm_num

/-- The pattern of `2.0` is the real number `2`. -/
theorem ofBits_two : Ideal.ofBits .f32 0x40000000#32 = ((2 : ℝ) : EReal) := by
  simp [Ideal.ofBits, Ideal.ieee, -EReal.coe_mul]; norm_num

/-- On the extended reals `(2 · a) / (-2) = (-1) · a` for every `a`, the infinities included: the divisor is a
    nonzero real, so the quotient is the product with its reciprocal, and the product is associative and
    commutative. -/
theorem two_mul_div_neg_two (a : EReal) :
    Ideal.div (((2 : ℝ) : EReal) * a) (-((2 : ℝ) : EReal)) = ((-1 : ℝ) : EReal) * a := by
  have h2 : (-((2 : ℝ) : EReal)) = (((-2 : ℝ)) : EReal) := by rw [EReal.coe_neg]
  rw [h2, Ideal.div_coe (by norm_num : (-2 : ℝ) ≠ 0), mul_comm ((2 : ℝ) : EReal) a, mul_assoc, ← EReal.coe_mul,
    mul_comm a]
  norm_num

/-- A scalar broadcast to the edge axis reads the scalar at every index. -/
theorem bcast_scalar_apply {α : Type} (x : S_.Idx → α) (i : S3200000.Idx) :
    broadcastInDim S3200000 ![] bcast_S_S3200000 x i = x ix0 :=
  broadcastInDim_apply _ bcast_S_S3200000 x i ix0 (fun a => a.elim0)

theorem scaledWeights_eq (x2 : Vec Ideal S3200000 .f32) :
    select
        (cmpf .oeq (mulf (broadcastInDim S3200000 ![] bcast_S_S3200000 (constant (F := Ideal) S_ .f32 0xBF800000#32)) x2)
          (broadcastInDim S3200000 ![] bcast_S_S3200000 (constant (F := Ideal) S_ .f32 0x7F800000#32)))
        (broadcastInDim S3200000 ![] bcast_S_S3200000 (id (constant (F := Ideal) S_ .f32 0x00000000#32)))
        (mulf (broadcastInDim S3200000 ![] bcast_S_S3200000 (constant (F := Ideal) S_ .f32 0xBF800000#32)) x2)
      = Cert.ReferenceIdeal.Read.val_main_v7 (F := Ideal) x2 := by
  funext i
  rw [Cert.ReferenceIdeal.Read.val_main_v7_apply, Cert.ReferenceIdeal.Read.val_main_v6_apply,
    Cert.ReferenceIdeal.Read.val_main_v4_apply, Cert.ReferenceIdeal.Read.val_main_v1_apply,
    Cert.ReferenceIdeal.Read.val_main_v0_apply, Cert.ReferenceIdeal.Read.val_main_v3_apply,
    Cert.ReferenceIdeal.Read.val_main_v5_apply, Cert.ReferenceIdeal.Read.val_main_call0_v1_apply,
    Cert.ReferenceIdeal.Read.val_main_v2_apply, Cert.ReferenceIdeal.Read.val_main_call0_v0_apply,
    Cert.ReferenceIdeal.Read.val_main_cst_apply, Cert.ReferenceIdeal.Read.val_main_cst_0_apply,
    Cert.ReferenceIdeal.Read.val_main_cst_1_apply, Cert.ReferenceIdeal.Read.val_main_cst_2_apply]
  rw [select_apply, cmpf_apply, mulf_apply, bcast_scalar_apply, bcast_scalar_apply, bcast_scalar_apply]
  have hv : FloatOps.hostDivf (F := Ideal) (FloatOps.mulf (FloatOps.ofBits .f32 0x40000000#32) (x2 i))
      (FloatOps.hostNegf (FloatOps.ofBits .f32 0x40000000#32))
        = constant (F := Ideal) S_ .f32 0xBF800000#32 ix0 * x2 i := by
    show Ideal.div (Ideal.ofBits .f32 0x40000000#32 * x2 i) (-(Ideal.ofBits .f32 0x40000000#32))
      = Ideal.ofBits .f32 0xBF800000#32 * x2 i
    rw [ofBits_two, ofBits_neg_one, two_mul_div_neg_two]
  rw [hv]
  rfl

end Cert.KernelIdeal.Hand
-- ==== Proof.ResultIsRef.lean ====
/-
  The kernel's layer of its own host lines' features is the reference's result.
  Both programs run the same propagations on the same edge arrays; the scaled edge weights agree on the extended
  reals (−1·w against (2·w)/(−2)), so the six Chebyshev feature arrays agree. The kernel then adds the six products
  to a zero accumulator and the reference adds them to the first product; 0 + a = a joins the two sums.
-/
import proofs.«146444_j24584392802821_2_alg».proof.Proof.IdealHost
import proofs.«146444_j24584392802821_2_alg».proof.Proof.IdealLayer
import proofs.«146444_j24584392802821_2_alg».proof.Proof.LayerStack
import proofs.«146444_j24584392802821_2_alg».proof.Proof.HostIsRef
import proofs.«146444_j24584392802821_2_alg».proof.Proof.ScaledWeights
import proofs.«146444_j24584392802821_2_alg».proof.Proof.RefLayer

set_option maxRecDepth 16384

noncomputable section

namespace Cert.KernelIdeal.Hand

open Idealize.ShloMosaic Idealize.ShloMosaic.ValueIdx
open Cert.KernelIdeal Cert.KernelIdeal.Gen

/-- The kernel's scaled weights are the reference's. -/
theorem scaledWeights_ref (x2 : Vec Ideal S3200000 .f32) :
    scaledWeights (F := Ideal) x2 = Cert.ReferenceIdeal.Read.val_main_v7 (F := Ideal) x2 :=
  scaledWeights_eq x2

/-- The layer of the kernel's stacked features is the reference's result, as whole arrays. -/
theorem layer_is_ref (x0 : Vec Ideal S200000x64 .f32) (x1 : Vec Ideal S2x3200000 .i32) (x2 : Vec Ideal S3200000 .f32)
    (x3 : Vec Ideal S6x64x64 .f32) (x4 : Vec Ideal S64 .f32) :
    layer (stackOf x0 (feat1 (scaledWeights x2) x0 x1) (feat2 (scaledWeights x2) x0 x1) (feat3 (scaledWeights x2) x0 x1)
        (feat4 (scaledWeights x2) x0 x1) (feat5 (scaledWeights x2) x0 x1)) x3 x4
      = Cert.ReferenceIdeal.Read.val_main_v119 (F := Ideal) x0 x1 x2 x3 x4 := by
  funext i
  obtain ⟨n, q, rfl⟩ : ∃ (n : Fin 200000) (q : Fin 64), i = ix2 n q := ⟨i 0, i 1, eq_ix2 i⟩
  rw [Cert.ReferenceIdeal.RefValue.ref_apply, scaledWeights_ref, feat1_ref, feat2_ref, feat3_ref, feat4_ref, feat5_ref]
  unfold stackOf
  exact layer_stack _ _ _ _ _ _ x3 x4 n q

end Cert.KernelIdeal.Hand

end
-- ==== Proof.lean ====
/-
  The certificate of the Chebyshev graph layer: out = Σ_{k=0}^{5} T_k·W[k] + bias over 200000 nodes with 64 features,
  T_0 = x, T_1 = L·x, T_k = 2·L·T_{k−1} − T_{k−2}, where L·z gathers the source rows of z over 3.4 million edges,
  scales them and adds them at their target rows.
  Both programs compute the propagations on the host by the same gather and scatter-add lines. The kernel program
  then stacks the six feature arrays and runs one region over 40 blocks of 5000 nodes, each adding six [5000,64]·[64,64]
  products to a zero accumulator and the bias row; the reference adds six whole products and the bias on the host.
  * The frames of the two kernel programs (Proof/WordFrame.lean at the word level, Proof/IdealFrame.lean on the
    extended reals, one text at two instances): the host lines run, the region's body stores once over its whole output
    block and leaves its inputs alone, and no argument array is written.
  * The reference's frame is its generated run with the result dropped.
  * The idealization rewrote nothing, so its ledger's claim is the empty conjunction.
  * On the extended reals the kernel program's result is the layer of what the region finds (Proof/IdealValue.lean,
    Proof/IdealResult.lean), the region finds the stack of the host lines' features (Proof/IdealHost.lean), and that
    layer is the reference's result (Proof/ResultIsRef.lean): the scaled edge weights −1·w and (2·w)/(−2) agree at
    every extended real, and 0 + a = a joins the two orders of summation. No finiteness of the inputs is used.
-/
import proofs.«146444_j24584392802821_2_alg».proof.Defs
import proofs.«146444_j24584392802821_2_alg».proof.Proof.WordFrame
import proofs.«146444_j24584392802821_2_alg».proof.Proof.IdealFrame
import proofs.«146444_j24584392802821_2_alg».proof.Proof.IdealResult
import proofs.«146444_j24584392802821_2_alg».proof.Proof.ResultIsRef
import proofs.«146444_j24584392802821_2_alg».proof.Proof.Gen.Kernel
import proofs.«146444_j24584392802821_2_alg».proof.Proof.Gen.KernelIdeal
import proofs.«146444_j24584392802821_2_alg».proof.Proof.Gen.ReferenceIdeal
import proofs.«146444_j24584392802821_2_alg».proof.Proof.Gen.ReferenceIdeal.Run
import proofs.«146444_j24584392802821_2_alg».proof.Proof.Gen.ReferenceIdeal.Read
import proofs.«146444_j24584392802821_2_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_word : Cert.frame_Kernel := fun m ρ _ => Cert.Kernel.Hand.frame m ρ

/-- So does the kernel program on the extended reals. -/
theorem frame_ideal : Cert.frame_KernelIdeal := fun m ρ _ => Cert.KernelIdeal.Hand.frame m ρ

/-- The reference's run, its result dropped. -/
theorem frame_ref : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end at the layer of the kernel's own features: the kernel by
    its run read back, the reference because its result is that layer. -/
theorem algebraic : Cert.algebraic_KernelIdeal_ReferenceIdeal := by
  intro m ρ m' ρ' _ hagree
  refine ⟨fun c => Cert.KernelIdeal.Hand.layer (Cert.KernelIdeal.Hand.V m c Cert.KernelIdeal.main_v97)
    (Cert.KernelIdeal.Hand.V m c Cert.KernelIdeal.main_arg3) (Cert.KernelIdeal.Hand.V m c Cert.KernelIdeal.main_arg4),
    Cert.KernelIdeal.Hand.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v119_eq, (hagree c).1, (hagree c).2.1, (hagree c).2.2.1, (hagree c).2.2.2.1,
    (hagree c).2.2.2.2]
  show _ = Cert.KernelIdeal.Hand.layer (Cert.KernelIdeal.Hand.V m c Cert.KernelIdeal.main_v97)
    (Cert.KernelIdeal.Hand.V m c Cert.KernelIdeal.main_arg3) (Cert.KernelIdeal.Hand.V m c Cert.KernelIdeal.main_arg4)
  rw [Cert.KernelIdeal.Hand.V_stack, Cert.KernelIdeal.Hand.V_main_arg3, Cert.KernelIdeal.Hand.V_main_arg4]
  exact (Cert.KernelIdeal.Hand.layer_is_ref _ _ _ _ _).symm

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
